-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S400000x64 : Shape := ⟨2, ![400000, 64]⟩
abbrev S2x400000 : Shape := ⟨2, ![2, 400000]⟩
abbrev S3x256x256 : Shape := ⟨3, ![3, 256, 256]⟩
abbrev S3x256 : Shape := ⟨2, ![3, 256]⟩
abbrev S3x256x64 : Shape := ⟨3, ![3, 256, 64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x64 : S_.BroadcastsInDim S3x256x64 (![] : Fin 0 → Fin S3x256x64.rank)
  reducesTo_S3x256x64_S_d0_1_2 : S3x256x64.ReducesTo [0, 1, 2] S_

variable [Facts]

def fn_part1 {F : FTy → Type} [FloatOps F] (main_arg5 : FVec F S3x256x256 .f32) (main_arg6 : FVec F S3x256x64 .f32) (main_arg7 : FVec F S3x256 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S3x256x256 .f32 := Host.absf main_arg5
  let main_cst_6 : FVec F S_ .f32 := constant S_ .f32 0x7F800000#32
  let main_v20 : FVec F S3x256x256 .f32 := broadcastInDim S3x256x256 ![] bcast_S_S3x256x256 main_cst_6
  let main_v21 : IVec S3x256x256 1 := cmpf .olt main_v19 main_v20
  let main_c_7 : IVec S_ 1 := constantI S_ 1 1#1
  let main_v22 : IVec S_ 1 := (fun x v => Host.reduce IntOp.andi x v reducesTo_S3x256x256_S_d0_1_2 h_S_) main_v21 main_c_7
  let main_v23 : IVec S_ 1 := andi main_v18 main_v22
  let main_v24 : FVec F S3x256x64 .f32 := Host.absf main_arg6
  let main_cst_8 : FVec F S_ .f32 := constant S_ .f32 0x7F800000#32
  let main_v25 : FVec F S3x256x64 .f32 := broadcastInDim S3x256x64 ![] bcast_S_S3x256x64 main_cst_8
  let main_v26 : IVec S3x256x64 1 := cmpf .olt main_v24 main_v25
  let main_c_9 : IVec S_ 1 := constantI S_ 1 1#1
  let main_v27 : IVec S_ 1 := (fun x v => Host.reduce IntOp.andi x v reducesTo_S3x256x64_S_d0_1_2 h_S_) main_v26 main_c_9
  let main_v28 : IVec S_ 1 := andi main_v23 main_v27
  let main_v29 : FVec F S3x256 .f32 := Host.absf main_arg7
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  main_v33

def fn {F : FTy → Type} [FloatOps F] (main_arg0 : FVec F S50000x256 .f32) (main_arg1 : FVec F S400000x64 .f32) (main_arg2 : IVec S2x400000 32) (main_arg3 : FVec F S3x256x256 .f32) (main_arg4 : FVec F S3x256 .f32) (main_arg5 : FVec F S3x256x256 .f32) (main_arg6 : FVec F S3x256x64 .f32) (main_arg7 : FVec F S3x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S400000x64 .f32 := Host.absf main_arg1
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  let main_v9 : FVec F S3x256x256 .f32 := Host.absf main_arg3
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S3x256 .f32 := Host.absf main_arg4
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg5 main_arg6 main_arg7 main_v13 main_v16
-- ==== Kernel.lean ====
abbrev S50000x256 : Shape := ⟨2, ![50000, 256]⟩
abbrev S400000x64 : Shape := ⟨2, ![400000, 64]⟩
abbrev S2x400000 : Shape := ⟨2, ![2, 400000]⟩
abbrev S3x256x256 : Shape := ⟨3, ![3, 256, 256]⟩
abbrev S3x256 : Shape := ⟨2, ![3, 256]⟩
abbrev S3x256x64 : Shape := ⟨3, ![3, 256, 64]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S1x256x64 : Shape := ⟨3, ![1, 256, 64]⟩
abbrev S256x64 : Shape := ⟨2, ![256, 64]⟩
abbrev S1x256 : Shape := ⟨2, ![1, 256]⟩
abbrev S256 : Shape := ⟨1, ![256]⟩
abbrev S64x256 : Shape := ⟨2, ![64, 256]⟩
abbrev S400000x256 : Shape := ⟨2, ![400000, 256]⟩
abbrev S5000x64 : Shape := ⟨2, ![5000, 64]⟩
abbrev S5000x256 : Shape := ⟨2, ![5000, 256]⟩
abbrev S1x256x256 : Shape := ⟨3, ![1, 256, 256]⟩
abbrev S256x256 : Shape := ⟨2, ![256, 256]⟩
abbrev S2000x256 : Shape := ⟨2, ![2000, 256]⟩

abbrev nBuf : Space → Nat
  | .hbm => 120
  | .vmem => 45
  | .smem => 0
  | _ => 0

abbrev bufTy : (tb : Table) → Fin (tcTables nBuf tb) → BufTy
  | .hbm, ⟨0, _⟩ => ⟨S50000x256, .f32⟩
  | .hbm, ⟨1, _⟩ => ⟨S400000x64, .f32⟩
  | .hbm, ⟨2, _⟩ => ⟨S2x400000, .i32⟩
  | .hbm, ⟨3, _⟩ => ⟨S3x256x256, .f32⟩
  | .hbm, ⟨4, _⟩ => ⟨S3x256, .f32⟩
  | .hbm, ⟨5, _⟩ => ⟨S3x256x256, .f32⟩
  | .hbm, ⟨6, _⟩ => ⟨S3x256x64, .f32⟩
  | .hbm, ⟨7, _⟩ => ⟨S3x256, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .f32⟩
  | .hbm, ⟨13, _⟩ => ⟨S400000, .f32⟩
  | .hbm, ⟨14, _⟩ => ⟨S_, .f32⟩
  | .hbm, ⟨15, _⟩ => ⟨S50000, .f32⟩
  | .hbm, ⟨16, _⟩ => ⟨S400000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S3x256x256, .f32⟩
  | .hbm, ⟨26, _⟩ => ⟨S3x256x256, .f32⟩
  | .hbm, ⟨27, _⟩ => ⟨S1x256x64, .f32⟩
  | .hbm, ⟨28, _⟩ => ⟨S256x64, .f32⟩
  | .hbm, ⟨29, _⟩ => ⟨S1x256, .f32⟩
  | .hbm, ⟨30, _⟩ => ⟨S256, .f32⟩
  | .hbm, ⟨31, _⟩ => ⟨S64x256, .f32⟩
  | .hbm, ⟨32, _⟩ => ⟨S1x256, .f32⟩
  | .hbm, ⟨33, _⟩ => ⟨S400000x256, .f32⟩
  | .hbm, ⟨34, _⟩ => ⟨S_, .i32⟩
  | .hbm, ⟨35, _⟩ => ⟨S400000, .i32⟩
  | .hbm, ⟨36, _⟩ => ⟨S400000, .i1⟩
  | .hbm, ⟨37, _⟩ => ⟨S_, .i32⟩
  | .hbm, ⟨38, _⟩ => ⟨S400000, .i32⟩
  | .hbm, ⟨39, _⟩ => ⟨S400000, .i32⟩
  | .hbm, ⟨40, _⟩ => ⟨S400000, .i32⟩
  | .hbm, ⟨41, _⟩ => ⟨S400000x1, .i32⟩
  | .hbm, ⟨42, _⟩ => ⟨S400000x256, .f32⟩
  | .hbm, ⟨43, _⟩ => ⟨S400000x256, .f32⟩
  | .hbm, ⟨44, _⟩ => ⟨S_, .f32⟩
  | .hbm, ⟨45, _⟩ => ⟨S50000x256, .f32⟩
  | .hbm, ⟨46, _⟩ => ⟨S400000x1, .i32⟩
  | .hbm, ⟨47, _⟩ => ⟨S50000x256, .f32⟩
  | .hbm, ⟨48, _⟩ => ⟨S50000x256, .f32⟩
  | .hbm, ⟨49, _⟩ => ⟨S50000x256, .f32⟩
  | .hbm, ⟨50, _⟩ => ⟨S1x256x256, .f32⟩
  | .hbm, ⟨51, _⟩ => ⟨S256x256, .f32⟩
  | .hbm, ⟨52, _⟩ => ⟨S1x256, .f32⟩
  | .hbm, ⟨53, _⟩ => ⟨S256, .f32⟩
  | .hbm, ⟨54, _⟩ => ⟨S1x256x256, .f32⟩
  | .hbm, ⟨55, _⟩ => ⟨S256x256, .f32⟩
  | .hbm, ⟨56, _⟩ => ⟨S1x256, .f32⟩
  | .hbm, ⟨57, _⟩ => ⟨S50000x256, .f32⟩
  | .hbm, ⟨58, _⟩ => ⟨S1x256x64, .f32⟩
  | .hbm, ⟨59, _⟩ => ⟨S256x64, .f32⟩
  | .hbm, ⟨60, _⟩ => ⟨S1x256, .f32⟩
  | .hbm, ⟨61, _⟩ => ⟨S256, .f32⟩
  | .hbm, ⟨62, _⟩ => ⟨S64x256, .f32⟩
  | .hbm, ⟨63, _⟩ => ⟨S1x256, .f32⟩
  | .hbm, ⟨64, _⟩ => ⟨S400000x256, .f32⟩
  | .hbm, ⟨65, _⟩ => ⟨S_, .i32⟩
  | .hbm, ⟨66, _⟩ => ⟨S400000, .i32⟩
  | .hbm, ⟨67, _⟩ => ⟨S400000, .i1⟩
  | .hbm, ⟨68, _⟩ => ⟨S_, .i32⟩
  | .hbm, ⟨69, _⟩ => ⟨S400000, .i32⟩
  | .hbm, ⟨70, _⟩ => ⟨S400000, .i32⟩
  | .hbm, ⟨71, _⟩ => ⟨S400000, .i32⟩
  | .hbm, ⟨72, _⟩ => ⟨S400000x1, .i32⟩
  | .hbm, ⟨73, _⟩ => ⟨S400000x256, .f32⟩
  | .hbm, ⟨74, _⟩ => ⟨S400000x256, .f32⟩
  | .hbm, ⟨75, _⟩ => ⟨S_, .f32⟩
  | .hbm, ⟨76, _⟩ => ⟨S50000x256, .f32⟩
  | .hbm, ⟨77, _⟩ => ⟨S400000x1, .i32⟩
  | .hbm, ⟨78, _⟩ => ⟨S50000x256, .f32⟩
  | .hbm, ⟨79, _⟩ => ⟨S50000x256, .f32⟩
  | .hbm, ⟨80, _⟩ => ⟨S50000x256, .f32⟩
  | .hbm, ⟨81, _⟩ => ⟨S1x256x256, .f32⟩
  | .hbm, ⟨82, _⟩ => ⟨S256x256, .f32⟩
  | .hbm, ⟨83, _⟩ => ⟨S1x256, .f32⟩
  | .hbm, ⟨84, _⟩ => ⟨S256, .f32⟩
  | .hbm, ⟨85, _⟩ => ⟨S1x256x256, .f32⟩
  | .hbm, ⟨86, _⟩ => ⟨S256x256, .f32⟩
  | .hbm, ⟨87, _⟩ => ⟨S1x256, .f32⟩
  | .hbm, ⟨88, _⟩ => ⟨S50000x256, .f32⟩
  | .hbm, ⟨89, _⟩ => ⟨S1x256x64, .f32⟩
  | .hbm, ⟨90, _⟩ => ⟨S256x64, .f32⟩
  | .hbm, ⟨91, _⟩ => ⟨S1x256, .f32⟩
  | .hbm, ⟨92, _⟩ => ⟨S256, .f32⟩
  | .hbm, ⟨93, _⟩ => ⟨S64x256, .f32⟩
  | .hbm, ⟨94, _⟩ => ⟨S1x256, .f32⟩
  | .hbm, ⟨95, _⟩ => ⟨S400000x256, .f32⟩
  | .hbm, ⟨96, _⟩ => ⟨S_, .i32⟩
  | .hbm, ⟨97, _⟩ => ⟨S400000, .i32⟩
  | .hbm, ⟨98, _⟩ => ⟨S400000, .i1⟩
  | .hbm, ⟨99, _⟩ => ⟨S_, .i32⟩
  | .hbm, ⟨100, _⟩ => ⟨S400000, .i32⟩
  | .hbm, ⟨101, _⟩ => ⟨S400000, .i32⟩
  | .hbm, ⟨102, _⟩ => ⟨S400000, .i32⟩
  | .hbm, ⟨103, _⟩ => ⟨S400000x1, .i32⟩
  | .hbm, ⟨104, _⟩ => ⟨S400000x256, .f32⟩
  | .hbm, ⟨105, _⟩ => ⟨S400000x256, .f32⟩
  | .hbm, ⟨106, _⟩ => ⟨S_, .f32⟩
  | .hbm, ⟨107, _⟩ => ⟨S50000x256, .f32⟩
  | .hbm, ⟨108, _⟩ => ⟨S400000x1, .i32⟩
  | .hbm, ⟨109, _⟩ => ⟨S50000x256, .f32⟩
  | .hbm, ⟨110, _⟩ => ⟨S50000x256, .f32⟩
  | .hbm, ⟨111, _⟩ => ⟨S50000x256, .f32⟩
  | .hbm, ⟨112, _⟩ => ⟨S1x256x256, .f32⟩
  | .hbm, ⟨113, _⟩ => ⟨S256x256, .f32⟩
  | .hbm, ⟨114, _⟩ => ⟨S1x256, .f32⟩
  | .hbm, ⟨115, _⟩ => ⟨S256, .f32⟩
  | .hbm, ⟨116, _⟩ => ⟨S1x256x256, .f32⟩
  | .hbm, ⟨117, _⟩ => ⟨S256x256, .f32⟩
  | .hbm, ⟨118, _⟩ => ⟨S1x256, .f32⟩
  | .hbm, ⟨119, _⟩ => ⟨S50000x256, .f32⟩
  | .local _ .vmem, ⟨0, _⟩ => ⟨S5000x64, .f32⟩
  | .local _ .vmem, ⟨1, _⟩ => ⟨S5000x64, .f32⟩
  | .local _ .vmem, ⟨2, _⟩ => ⟨S64x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S5000x64, .f32⟩
  | .local _ .vmem, ⟨16, _⟩ => ⟨S5000x64, .f32⟩
  | .local _ .vmem, ⟨17, _⟩ => ⟨S64x256, .f32⟩
  | .local _ .vmem, ⟨18, _⟩ => ⟨S1x256, .f32⟩
  | .local _ .vmem, ⟨19, _⟩ => ⟨S5000x256, .f32⟩
  | .local _ .vmem, ⟨20, _⟩ => ⟨S5000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S256x256, .f32⟩
  | .local _ .vmem, ⟨26, _⟩ => ⟨S1x256, .f32⟩
  | .local _ .vmem, ⟨27, _⟩ => ⟨S256x256, .f32⟩
  | .local _ .vmem, ⟨28, _⟩ => ⟨S2000x256, .f32⟩
  | .local _ .vmem, ⟨29, _⟩ => ⟨S2000x256, .f32⟩
  | .local _ .vmem, ⟨30, _⟩ => ⟨S5000x64, .f32⟩
  | .local _ .vmem, ⟨31, _⟩ => ⟨S5000x64, .f32⟩
  | .local _ .vmem, ⟨32, _⟩ => ⟨S64x256, .f32⟩
  | .local _ .vmem, ⟨33, _⟩ => ⟨S1x256, .f32⟩
  | .local _ .vmem, ⟨34, _⟩ => ⟨S5000x256, .f32⟩
  | .local _ .vmem, ⟨35, _⟩ => ⟨S5000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S256x256, .f32⟩
  | .local _ .vmem, ⟨41, _⟩ => ⟨S1x256, .f32⟩
  | .local _ .vmem, ⟨42, _⟩ => ⟨S256x256, .f32⟩
  | .local _ .vmem, ⟨43, _⟩ => ⟨S2000x256, .f32⟩
  | .local _ .vmem, ⟨44, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_5 : Ref sig .tc := ⟨.hbm, 65, rfl⟩
abbrev main_v50 : Ref sig .tc := ⟨.hbm, 66, rfl⟩
abbrev main_v51 : Ref sig .tc := ⟨.hbm, 67, rfl⟩
abbrev main_c_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_c_8 : Ref sig .tc := ⟨.hbm, 96, rfl⟩
abbrev main_v78 : Ref sig .tc := ⟨.hbm, 97, rfl⟩
abbrev main_v79 : Ref sig .tc := ⟨.hbm, 98, rfl⟩
abbrev main_c_9 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_10 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg5_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem5_0 : DmaSem sig := 43
abbrev cc5_sem5_1 : DmaSem sig := 44

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  transposes_S3x256x256_S3x256x256_0_2_1 : S3x256x256.Transposes [0, 2, 1] S3x256x256
  slices_S3x256x64_S1x256x64_0_0_0 : S3x256x64.Slices ![0, 0, 0] S1x256x64
  shapeCasts_S1x256x64_S256x64 : S1x256x64.ShapeCasts S256x64
  slices_S3x256_S1x256_0_0 : S3x256.Slices ![0, 0] S1x256
  shapeCasts_S1x256_S256 : S1x256.ShapeCasts S256
  transposes_S256x64_S64x256_1_0 : S256x64.Transposes [1, 0] S64x256
  shapeCasts_S256_S1x256 : S256.ShapeCasts S1x256
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  slices_S3x256x256_S1x256x256_0_0_0 : S3x256x256.Slices ![0, 0, 0] S1x256x256
  shapeCasts_S1x256x256_S256x256 : S1x256x256.ShapeCasts S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S2000x256 : S1x256.Broadcasts S2000x256
  slices_S3x256x64_S1x256x64_1_0_0 : S3x256x64.Slices ![1, 0, 0] S1x256x64
  slices_S3x256_S1x256_1_0 : S3x256.Slices ![1, 0] S1x256
  slices_S3x256x256_S1x256x256_1_0_0 : S3x256x256.Slices ![1, 0, 0] S1x256x256
  slices_S3x256x64_S1x256x64_2_0_0 : S3x256x64.Slices ![2, 0, 0] S1x256x64
  slices_S3x256_S1x256_2_0 : S3x256.Slices ![2, 0] S1x256
  slices_S3x256x256_S1x256x256_2_0_0 : S3x256x256.Slices ![2, 0, 0] S1x256x256
  scatter_S50000_S400000x1_S400000_n_0_0_1_wf : ScatterDims.WF S50000 S400000x1 S400000 [] [0] [0] 1
  dot_S5000x64_S64x256_S5000x256_1_0_0_1_n_n_wf : DotDims.WF S5000x64 S64x256 S5000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S400000x64.size a
  hwx0_0 : ∀ i : grid0.Coords, EltTy.bits .f32 = 32 ∨ (Rect.block (s := S400000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S400000x256.size a
  hwx0_3 : ∀ i : grid0.Coords, EltTy.bits .f32 = 32 ∨ (Rect.block (s := S400000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S400000x64.size a
  hwx2_0 : ∀ i : grid2.Coords, EltTy.bits .f32 = 32 ∨ (Rect.block (s := S400000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S64x256.size a
  hwx2_1 : ∀ i : grid2.Coords, EltTy.bits .f32 = 32 ∨ (Rect.block (s := S64x256) S64x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S400000x256.size a
  hwx2_3 : ∀ i : grid2.Coords, EltTy.bits .f32 = 32 ∨ (Rect.block (s := S400000x256) S5000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S400000x64.size a
  hwx4_0 : ∀ i : grid4.Coords, EltTy.bits .f32 = 32 ∨ (Rect.block (s := S400000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x256.size a ≤ S64x256.size a
  hwx4_1 : ∀ i : grid4.Coords, EltTy.bits .f32 = 32 ∨ (Rect.block (s := S64x256) S64x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x256.size a ≤ S400000x256.size a
  hwx4_3 : ∀ i : grid4.Coords, EltTy.bits .f32 = 32 ∨ (Rect.block (s := S400000x256) S5000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .f32 = 32 ∨ (Rect.block (s := S50000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x256.size a ≤ S256x256.size a
  hwx5_4 : ∀ i : grid5.Coords, EltTy.bits .f32 = 32 ∨ (Rect.block (s := S256x256) S256x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S64x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v62) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v70) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg1) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S64x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S5000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v90) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v92) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v97) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v96) S256x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v98) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x256 : Shape := ⟨2, ![50000, 256]⟩
abbrev S400000x64 : Shape := ⟨2, ![400000, 64]⟩
abbrev S2x400000 : Shape := ⟨2, ![2, 400000]⟩
abbrev S3x256x256 : Shape := ⟨3, ![3, 256, 256]⟩
abbrev S3x256 : Shape := ⟨2, ![3, 256]⟩
abbrev S3x256x64 : Shape := ⟨3, ![3, 256, 64]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S1x256x64 : Shape := ⟨3, ![1, 256, 64]⟩
abbrev S256x64 : Shape := ⟨2, ![256, 64]⟩
abbrev S64x256 : Shape := ⟨2, ![64, 256]⟩
abbrev S400000x256 : Shape := ⟨2, ![400000, 256]⟩
abbrev S1x256 : Shape := ⟨2, ![1, 256]⟩
abbrev S256 : Shape := ⟨1, ![256]⟩
abbrev S1x256x256 : Shape := ⟨3, ![1, 256, 256]⟩
abbrev S256x256 : Shape := ⟨2, ![256, 256]⟩

abbrev nBuf : Space → Nat
  | .hbm => 151
  | .vmem => 0
  | .smem => 0
  | _ => 0

abbrev hbmTy0_0 (i : Nat) : BufTy := match i % 128 with
  | 0 => ⟨S50000x256, .f32⟩
  | 1 => ⟨S400000x64, .f32⟩
  | 2 => ⟨S2x400000, .i32⟩
  | 3 => ⟨S3x256x256, .f32⟩
  | 4 => ⟨S3x256, .f32⟩
  | 5 => ⟨S3x256x256, .f32⟩
  | 6 => ⟨S3x256x64, .f32⟩
  | 7 => ⟨S3x256, .f32⟩
  | 8 => ⟨S1x400000, .i32⟩
  | 9 => ⟨S400000, .i32⟩
  | 10 => ⟨S1x400000, .i32⟩
  | 11 => ⟨S400000, .i32⟩
  | 12 => ⟨S_, .f32⟩
  | 13 => ⟨S400000, .f32⟩
  | 14 => ⟨S_, .f32⟩
  | 15 => ⟨S50000, .f32⟩
  | 16 => ⟨S400000x1, .i32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .f32⟩
  | 24 => ⟨S50000x1, .f32⟩
  | 25 => ⟨S1x256x64, .f32⟩
  | 26 => ⟨S256x64, .f32⟩
  | 27 => ⟨S64x256, .f32⟩
  | 28 => ⟨S400000x256, .f32⟩
  | 29 => ⟨S1x256, .f32⟩
  | 30 => ⟨S256, .f32⟩
  | 31 => ⟨S1x256, .f32⟩
  | 32 => ⟨S400000x256, .f32⟩
  | 33 => ⟨S400000x256, .f32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S400000x256, .f32⟩
  | 43 => ⟨S400000x256, .f32⟩
  | 44 => ⟨S_, .f32⟩
  | 45 => ⟨S50000x256, .f32⟩
  | 46 => ⟨S400000x1, .i32⟩
  | 47 => ⟨S50000x256, .f32⟩
  | 48 => ⟨S50000x256, .f32⟩
  | 49 => ⟨S50000x256, .f32⟩
  | 50 => ⟨S1x256x256, .f32⟩
  | 51 => ⟨S256x256, .f32⟩
  | 52 => ⟨S256x256, .f32⟩
  | 53 => ⟨S50000x256, .f32⟩
  | 54 => ⟨S1x256, .f32⟩
  | 55 => ⟨S256, .f32⟩
  | 56 => ⟨S1x256, .f32⟩
  | 57 => ⟨S50000x256, .f32⟩
  | 58 => ⟨S50000x256, .f32⟩
  | 59 => ⟨S1x256x256, .f32⟩
  | 60 => ⟨S256x256, .f32⟩
  | 61 => ⟨S256x256, .f32⟩
  | 62 => ⟨S50000x256, .f32⟩
  | 63 => ⟨S50000x256, .f32⟩
  | 64 => ⟨S_, .f32⟩
  | 65 => ⟨S50000x256, .f32⟩
  | 66 => ⟨S50000x256, .f32⟩
  | 67 => ⟨S1x256x64, .f32⟩
  | 68 => ⟨S256x64, .f32⟩
  | 69 => ⟨S64x256, .f32⟩
  | 70 => ⟨S400000x256, .f32⟩
  | 71 => ⟨S1x256, .f32⟩
  | 72 => ⟨S256, .f32⟩
  | 73 => ⟨S1x256, .f32⟩
  | 74 => ⟨S400000x256, .f32⟩
  | 75 => ⟨S400000x256, .f32⟩
  | 76 => ⟨S_, .i32⟩
  | 77 => ⟨S400000, .i32⟩
  | 78 => ⟨S400000, .i1⟩
  | 79 => ⟨S_, .i32⟩
  | 80 => ⟨S400000, .i32⟩
  | 81 => ⟨S400000, .i32⟩
  | 82 => ⟨S400000, .i32⟩
  | 83 => ⟨S400000x1, .i32⟩
  | 84 => ⟨S400000x256, .f32⟩
  | 85 => ⟨S400000x256, .f32⟩
  | 86 => ⟨S_, .f32⟩
  | 87 => ⟨S50000x256, .f32⟩
  | 88 => ⟨S400000x1, .i32⟩
  | 89 => ⟨S50000x256, .f32⟩
  | 90 => ⟨S50000x256, .f32⟩
  | 91 => ⟨S50000x256, .f32⟩
  | 92 => ⟨S1x256x256, .f32⟩
  | 93 => ⟨S256x256, .f32⟩
  | 94 => ⟨S256x256, .f32⟩
  | 95 => ⟨S50000x256, .f32⟩
  | 96 => ⟨S1x256, .f32⟩
  | 97 => ⟨S256, .f32⟩
  | 98 => ⟨S1x256, .f32⟩
  | 99 => ⟨S50000x256, .f32⟩
  | 100 => ⟨S50000x256, .f32⟩
  | 101 => ⟨S1x256x256, .f32⟩
  | 102 => ⟨S256x256, .f32⟩
  | 103 => ⟨S256x256, .f32⟩
  | 104 => ⟨S50000x256, .f32⟩
  | 105 => ⟨S50000x256, .f32⟩
  | 106 => ⟨S_, .f32⟩
  | 107 => ⟨S50000x256, .f32⟩
  | 108 => ⟨S50000x256, .f32⟩
  | 109 => ⟨S1x256x64, .f32⟩
  | 110 => ⟨S256x64, .f32⟩
  | 111 => ⟨S64x256, .f32⟩
  | 112 => ⟨S400000x256, .f32⟩
  | 113 => ⟨S1x256, .f32⟩
  | 114 => ⟨S256, .f32⟩
  | 115 => ⟨S1x256, .f32⟩
  | 116 => ⟨S400000x256, .f32⟩
  | 117 => ⟨S400000x256, .f32⟩
  | 118 => ⟨S_, .i32⟩
  | 119 => ⟨S400000, .i32⟩
  | 120 => ⟨S400000, .i1⟩
  | 121 => ⟨S_, .i32⟩
  | 122 => ⟨S400000, .i32⟩
  | 123 => ⟨S400000, .i32⟩
  | 124 => ⟨S400000, .i32⟩
  | 125 => ⟨S400000x1, .i32⟩
  | 126 => ⟨S400000x256, .f32⟩
  | 127 => ⟨S400000x256, .f32⟩
  | _ => ⟨S50000x256, .f32⟩

abbrev hbmTy0_1 (i : Nat) : BufTy := match i % 128 with
  | 0 => ⟨S_, .f32⟩
  | 1 => ⟨S50000x256, .f32⟩
  | 2 => ⟨S400000x1, .i32⟩
  | 3 => ⟨S50000x256, .f32⟩
  | 4 => ⟨S50000x256, .f32⟩
  | 5 => ⟨S50000x256, .f32⟩
  | 6 => ⟨S1x256x256, .f32⟩
  | 7 => ⟨S256x256, .f32⟩
  | 8 => ⟨S256x256, .f32⟩
  | 9 => ⟨S50000x256, .f32⟩
  | 10 => ⟨S1x256, .f32⟩
  | 11 => ⟨S256, .f32⟩
  | 12 => ⟨S1x256, .f32⟩
  | 13 => ⟨S50000x256, .f32⟩
  | 14 => ⟨S50000x256, .f32⟩
  | 15 => ⟨S1x256x256, .f32⟩
  | 16 => ⟨S256x256, .f32⟩
  | 17 => ⟨S256x256, .f32⟩
  | 18 => ⟨S50000x256, .f32⟩
  | 19 => ⟨S50000x256, .f32⟩
  | 20 => ⟨S_, .f32⟩
  | 21 => ⟨S50000x256, .f32⟩
  | 22 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call0_cst : Ref sig .tc := ⟨.hbm, 64, rfl⟩
abbrev main_call0_v0 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_5 : Ref sig .tc := ⟨.hbm, 76, rfl⟩
abbrev main_v59 : Ref sig .tc := ⟨.hbm, 77, rfl⟩
abbrev main_v60 : Ref sig .tc := ⟨.hbm, 78, rfl⟩
abbrev main_c_6 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_7 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_call1_cst : Ref sig .tc := ⟨.hbm, 106, rfl⟩
abbrev main_call1_v0 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_c_8 : Ref sig .tc := ⟨.hbm, 118, rfl⟩
abbrev main_v96 : Ref sig .tc := ⟨.hbm, 119, rfl⟩
abbrev main_v97 : Ref sig .tc := ⟨.hbm, 120, rfl⟩
abbrev main_c_9 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_10 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_call2_cst : Ref sig .tc := ⟨.hbm, 148, rfl⟩
abbrev main_call2_v0 : Ref sig .tc := ⟨.hbm, 149, rfl⟩
abbrev main_v123 : Ref sig .tc := ⟨.hbm, 150, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  slices_S3x256x64_S1x256x64_0_0_0 : S3x256x64.Slices ![0, 0, 0] S1x256x64
  shapeCasts_S1x256x64_S256x64 : S1x256x64.ShapeCasts S256x64
  transposes_S256x64_S64x256_1_0 : S256x64.Transposes [1, 0] S64x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S400000x256_0_1 : S1x256.BroadcastsInDim S400000x256 (![0, 1] : Fin 2 → Fin S400000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  bcast_S1x256_S50000x256_0_1 : S1x256.BroadcastsInDim S50000x256 (![0, 1] : Fin 2 → Fin S50000x256.rank)
  slices_S3x256x64_S1x256x64_1_0_0 : S3x256x64.Slices ![1, 0, 0] S1x256x64
  slices_S3x256_S1x256_1_0 : S3x256.Slices ![1, 0] S1x256
  slices_S3x256x256_S1x256x256_1_0_0 : S3x256x256.Slices ![1, 0, 0] S1x256x256
  slices_S3x256x64_S1x256x64_2_0_0 : S3x256x64.Slices ![2, 0, 0] S1x256x64
  slices_S3x256_S1x256_2_0 : S3x256.Slices ![2, 0] S1x256
  slices_S3x256x256_S1x256x256_2_0_0 : S3x256x256.Slices ![2, 0, 0] S1x256x256
  scatter_S50000_S400000x1_S400000_n_0_0_1_wf : ScatterDims.WF S50000 S400000x1 S400000 [] [0] [0] 1
  dot_S400000x64_S64x256_S400000x256_1_0_0_1_n_n_wf : DotDims.WF S400000x64 S64x256 S400000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S50000x256_S256x256_S50000x256_1_0_0_1_n_n_wf : DotDims.WF S50000x256 S256x256 S50000x256 [1] [0] [0] [1] [] []

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S400000x64_S64x256_S400000x256_1_0_0_1_n_n : DotDims S400000x64 S64x256 S400000x256 where
  lhsContracting := [1]
  rhsContracting := [0]
  lhsNonContracting := [0]
  rhsNonContracting := [1]
  lhsBatch := []
  rhsBatch := []
  wf := dot_S400000x64_S64x256_S400000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.RunValue.lean ====
/-
  The kernel program's run with its result named. Every weakly fair execution of the program ends, nothing
  faulting, with the result buffer holding what the last region's write-backs leave there — the contents at the last
  boundary of the run, a fold through the six regions and the host operations between them from the launch memory —
  and with the argument arrays as launched.
-/
import proofs.«155130_j4260607558136_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run: the result buffer ends at the last boundary's contents, the arguments as launched. The final thread
    state holds every unscoped buffer at the last boundary's contents; the result buffer is one of them. -/
theorem run : θ_run defs (onTc (τ := τ) (main (F := F))) ⟨m, fun _ => 0, ρ⟩ (fun r => ∀ c : Dev nD,
      r.2.mem ((c.tc : Thread nD τ).loc main_v98) = W12 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v98 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.RunValue

end
-- ==== Proof.Spec.lean ====
/-
  The network both programs compute, written once as whole-array operations on extended reals.

  A graph of 50000 nodes with 256 features each and 400000 directed edges with 64 attributes each. Row 0 of the
  edge table lists each edge's source node and row 1 its target node. One layer, from node features x:
    * every edge e gets a message: row src(e) of x plus an affine image of its attributes, ea(e,·)·w + b;
    * every node sums the messages of the edges that point at it and scales the sum by 1 / max(in-degree, 1);
    * the new features are max(0, (agg·wl + bl) + x·wr).
  The network is three such layers, layer l using slab l of each parameter array, every weight slab transposed
  before it multiplies.
-/
import proofs.«155130_j4260607558136_2_alg».proof.ReferenceIdeal
import Idealize.ShloMosaic.PureOps.Ideal

noncomputable section

namespace Cert.Net

open Idealize.ShloMosaic Cert.ReferenceIdeal Cert.ReferenceIdeal.Facts₀

variable [Cert.ReferenceIdeal.Facts]

/-- Contents of a buffer of a shape and element type, floats read as extended reals. -/
abbrev Arr (s : Shape) (e : EltTy) : Type := (⟨s, e⟩ : BufTy).Contents (Elt Ideal)

/-- The edges' source nodes as a column of positions, a negative position wrapped once by the node count. -/
def srcCol (ei : Arr S2x400000 .i32) : Arr S400000x1 .i32 :=
  let s : Arr S400000 .i32 := shapeCast S400000 (extractStridedSlice S1x400000 ![0, 0] ei slices_S2x400000_S1x400000_0_0) shapeCasts_S1x400000_S400000
  broadcastInDim S400000x1 ![0] bcast_S400000_S400000x1_0
    (select (cmpi .slt s (broadcastInDim S400000 ![] bcast_S_S400000 (constantI S_ 32 0#32)))
      (addi s (broadcastInDim S400000 ![] bcast_S_S400000 (constantI S_ 32 50000#32))) s)

/-- The edges' target nodes as a column of positions. -/
def dstCol (ei : Arr S2x400000 .i32) : Arr S400000x1 .i32 :=
  broadcastInDim S400000x1 ![0] bcast_S400000_S400000x1_0
    (shapeCast S400000 (extractStridedSlice S1x400000 ![1, 0] ei slices_S2x400000_S1x400000_1_0) shapeCasts_S1x400000_S400000)

/-- Each node's scale 1 / max(in-degree, 1), as a column: the in-degree is a 1 accumulated per edge at its target. -/
def invDeg (ei : Arr S2x400000 .i32) : FVec Ideal S50000x1 .f32 :=
  broadcastInDim S50000x1 ![0] bcast_S50000_S50000x1_0
    (Host.divf (F := Ideal) (broadcastInDim S50000 ![] bcast_S_S50000 (constant (F := Ideal) S_ .f32 0x3F800000#32))
      (maximumf (F := Ideal)
        (Host.scatterAdd (F := Ideal) scatter_S50000_S400000x1_S400000_n_0_0_1
          (broadcastInDim S50000 ![] bcast_S_S50000 (constant (F := Ideal) S_ .f32 0x00000000#32)) (dstCol ei)
          (broadcastInDim S400000 ![] bcast_S_S400000 (constant (F := Ideal) S_ .f32 0x3F800000#32)))
        (broadcastInDim S50000 ![] bcast_S_S50000 (constant (F := Ideal) S_ .f32 0x3F800000#32))))

/-- The mean of the messages arriving at each node: message e is row src(e) of x plus row e of el. -/
def agg (x : FVec Ideal S50000x256 .f32) (el : FVec Ideal S400000x256 .f32) (ei : Arr S2x400000 .i32) : FVec Ideal S50000x256 .f32 :=
  mulf (F := Ideal)
    (Host.scatterAdd (F := Ideal) scatter_S50000x256_S400000x1_S400000x256_1_0_0_1
      (broadcastInDim S50000x256 ![] bcast_S_S50000x256 (constant (F := Ideal) S_ .f32 0x00000000#32)) (dstCol ei)
      (addf (F := Ideal) (Host.gather gather_S50000x256_S400000x1_S400000x256_1_0_n_n_0_1_1256 x (srcCol ei)) el))
    (broadcastInDim S50000x256 ![0, 1] bcast_S50000x1_S50000x256_0_1 (invDeg ei))

/-- The affine image of the edge attributes: ea·w plus the bias row on every edge. -/
def edge (ea : FVec Ideal S400000x64 .f32) (w : FVec Ideal S64x256 .f32) (brow : FVec Ideal S1x256 .f32) : FVec Ideal S400000x256 .f32 :=
  addf (F := Ideal) (Host.dotGeneral (F := Ideal) dot_S400000x64_S64x256_S400000x256_1_0_0_1_n_n none ea w)
    (broadcastInDim S400000x256 ![0, 1] bcast_S1x256_S400000x256_0_1 brow)

/-- The node update: max(0, (a·wl + bias row) + x·wr). -/
def upd (a x : FVec Ideal S50000x256 .f32) (wl : FVec Ideal S256x256 .f32) (brow : FVec Ideal S1x256 .f32) (wr : FVec Ideal S256x256 .f32) :
    FVec Ideal S50000x256 .f32 :=
  maximumf (F := Ideal)
    (addf (F := Ideal)
      (addf (F := Ideal) (Host.dotGeneral (F := Ideal) dot_S50000x256_S256x256_S50000x256_1_0_0_1_n_n none a wl)
        (broadcastInDim S50000x256 ![0, 1] bcast_S1x256_S50000x256_0_1 brow))
      (Host.dotGeneral (F := Ideal) dot_S50000x256_S256x256_S50000x256_1_0_0_1_n_n none x wr))
    (broadcastInDim S50000x256 ![] bcast_S_S50000x256 (constant (F := Ideal) S_ .f32 0x00000000#32))

/-- Slab st of a stack of three 256×256 weight matrices, transposed. -/
def wSlab (W : FVec Ideal S3x256x256 .f32) (st : Fin 3 → ℕ) (h : S3x256x256.Slices st S1x256x256) : FVec Ideal S256x256 .f32 :=
  transpose S256x256 [1, 0] (shapeCast S256x256 (extractStridedSlice S1x256x256 st W h) shapeCasts_S1x256x256_S256x256)
    transposes_S256x256_S256x256_1_0

/-- Slab st of the stack of three 256×64 edge weight matrices, transposed. -/
def eSlab (W : FVec Ideal S3x256x64 .f32) (st : Fin 3 → ℕ) (h : S3x256x64.Slices st S1x256x64) : FVec Ideal S64x256 .f32 :=
  transpose S64x256 [1, 0] (shapeCast S256x64 (extractStridedSlice S1x256x64 st W h) shapeCasts_S1x256x64_S256x64)
    transposes_S256x64_S64x256_1_0

/-- Row st of a stack of three bias vectors, as a one-row matrix. -/
def bRow (b : FVec Ideal S3x256 .f32) (st : Fin 2 → ℕ) (h : S3x256.Slices st S1x256) : FVec Ideal S1x256 .f32 :=
  broadcastInDim S1x256 ![1] bcast_S256_S1x256_1 (shapeCast S256 (extractStridedSlice S1x256 st b h) shapeCasts_S1x256_S256)

/-- One layer from node features x. -/
def layer (x : FVec Ideal S50000x256 .f32) (ea : FVec Ideal S400000x64 .f32) (ei : Arr S2x400000 .i32)
    (wl : FVec Ideal S256x256 .f32) (bl : FVec Ideal S1x256 .f32) (wr : FVec Ideal S256x256 .f32) (we : FVec Ideal S64x256 .f32) (be : FVec Ideal S1x256 .f32) :
    FVec Ideal S50000x256 .f32 :=
  upd (agg x (edge ea we be) ei) x wl bl wr

/-- The three layers. -/
def net (x : FVec Ideal S50000x256 .f32) (ea : FVec Ideal S400000x64 .f32) (ei : Arr S2x400000 .i32) (Wl : FVec Ideal S3x256x256 .f32)
    (bl : FVec Ideal S3x256 .f32) (Wr : FVec Ideal S3x256x256 .f32) (We : FVec Ideal S3x256x64 .f32) (be : FVec Ideal S3x256 .f32) : FVec Ideal S50000x256 .f32 :=
  let x1 := layer x ea ei (wSlab Wl ![0, 0, 0] slices_S3x256x256_S1x256x256_0_0_0) (bRow bl ![0, 0] slices_S3x256_S1x256_0_0)
    (wSlab Wr ![0, 0, 0] slices_S3x256x256_S1x256x256_0_0_0) (eSlab We ![0, 0, 0] slices_S3x256x64_S1x256x64_0_0_0) (bRow be ![0, 0] slices_S3x256_S1x256_0_0)
  let x2 := layer x1 ea ei (wSlab Wl ![1, 0, 0] slices_S3x256x256_S1x256x256_1_0_0) (bRow bl ![1, 0] slices_S3x256_S1x256_1_0)
    (wSlab Wr ![1, 0, 0] slices_S3x256x256_S1x256x256_1_0_0) (eSlab We ![1, 0, 0] slices_S3x256x64_S1x256x64_1_0_0) (bRow be ![1, 0] slices_S3x256_S1x256_1_0)
  layer x2 ea ei (wSlab Wl ![2, 0, 0] slices_S3x256x256_S1x256x256_2_0_0) (bRow bl ![2, 0] slices_S3x256_S1x256_2_0)
    (wSlab Wr ![2, 0, 0] slices_S3x256x256_S1x256x256_2_0_0) (eSlab We ![2, 0, 0] slices_S3x256x64_S1x256x64_2_0_0) (bRow be ![2, 0] slices_S3x256_S1x256_2_0)

end Cert.Net

end
-- ==== Proof.LibRow.lean ====
/-
  A vector laid out as a one-row matrix. Reshaping a length-n vector to shape 1×n and broadcasting it along a new
  leading axis of extent 1 are the same array: entry (0, q) is entry q of the vector.
-/
import Idealize.ShloMosaic.Lib.Pipeline.Value
import Idealize.ShloMosaic.Lib.ValueIdx

noncomputable section

namespace Cert.LibRow

open Idealize.ShloMosaic Idealize.ShloMosaic.ValueIdx

/-- The row-major reshape of a vector to one row is its broadcast along a new leading unit axis. -/
theorem reshape_row_eq_broadcast {n : Nat} {α : Type} (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, q, rfl⟩ : ∃ (z : Fin 1) (q : Fin n), j = ix2 z q := ⟨j 0, j 1, eq_ix2 j⟩
  have hq := q.isLt
  have hz := z.isLt
  rw [shapeCast_apply x h (ix2 z q) (ix1 q) (by
    rw [Shape.rowMajor_val_one, Shape.rowMajor_val_two]
    show q.val = z.val * n + q.val
    have : z.val = 0 := by omega
    rw [this]; omega)]
  exact (broadcastInDim_apply ![1] h' x (ix2 z q) (ix1 q) (fun a => by
    match a with
    | ⟨0, _⟩ => show q.val = if n = 1 then 0 else q.val; split <;> omega)).symm

end Cert.LibRow
-- ==== Proof.LibSlabSwap.lean ====
/-
  Cutting a slab out of a stack of matrices commutes with transposing: for a stack W of n matrices with a rows and b
  columns, slab l of the stack whose every matrix is transposed (the stack's last two axes swapped), with its unit axis
  dropped, is the transpose of slab l of W with its unit axis dropped. Entry (k, q) of either is W (l, q, k). Any
  element type, any extents; the slab starts at row 0 and column 0 and is one matrix thick.
-/
import Idealize.ShloMosaic.Lib.Pipeline.Value
import Idealize.ShloMosaic.Lib.ValueIdx

namespace Cert.LibSlabSwap

open Idealize.ShloMosaic Idealize.ShloMosaic.ValueIdx

/-- Slab `st 0` of the stack with its last two axes swapped is slab `st 0` of the stack, transposed. -/
theorem slab_swap_eq {n a b : ℕ} {α : Type} (W : (⟨3, ![n, a, b]⟩ : Shape).Idx → α) (st : Fin 3 → ℕ)
    (h1 : st 1 = 0) (h2 : st 2 = 0)
    (hT : (⟨3, ![n, a, b]⟩ : Shape).Transposes [0, 2, 1] ⟨3, ![n, b, a]⟩)
    (hs' : (⟨3, ![n, b, a]⟩ : Shape).Slices st ⟨3, ![1, b, a]⟩)
    (hc' : (⟨3, ![1, b, a]⟩ : Shape).ShapeCasts ⟨2, ![b, a]⟩)
    (hs : (⟨3, ![n, a, b]⟩ : Shape).Slices st ⟨3, ![1, a, b]⟩)
    (hc : (⟨3, ![1, a, b]⟩ : Shape).ShapeCasts ⟨2, ![a, b]⟩)
    (ht : (⟨2, ![a, b]⟩ : Shape).Transposes [1, 0] ⟨2, ![b, a]⟩) :
    shapeCast ⟨2, ![b, a]⟩ (extractStridedSlice ⟨3, ![1, b, a]⟩ st (transpose ⟨3, ![n, b, a]⟩ [0, 2, 1] W hT) hs') hc'
      = transpose ⟨2, ![b, a]⟩ [1, 0] (shapeCast ⟨2, ![a, b]⟩ (extractStridedSlice ⟨3, ![1, a, b]⟩ st W hs) hc) ht := by
  funext j
  obtain ⟨k, q, rfl⟩ : ∃ (k : Fin b) (q : Fin a), j = ix2 k q := ⟨j 0, j 1, eq_ix2 j⟩
  have hk := k.isLt
  have hq := q.isLt
  have h0 : st 0 + 1 ≤ n := hs.2 0
  -- the left side: the reshape drops the unit axis, the slice shifts by its start, the swap exchanges the last two axes
  rw [shapeCast_apply _ hc' (ix2 k q) (ix3 (0 : Fin 1) k q) (by
    rw [Shape.rowMajor_val_three, Shape.rowMajor_val_two]
    show ((0 : ℕ) * b + k.val) * a + q.val = k.val * a + q.val
    rw [Nat.zero_mul, Nat.zero_add])]
  rw [extractStridedSlice_apply st _ hs' (ix3 (0 : Fin 1) k q) (ix3 (⟨st 0, by omega⟩ : Fin n) k q) (fun ax => by
    match ax with
    | ⟨0, _⟩ => show st 0 = st 0 + 0; omega
    | ⟨1, _⟩ => show k.val = st 1 + k.val; omega
    | ⟨2, _⟩ => show q.val = st 2 + q.val; omega)]
  rw [transpose_apply [0, 2, 1] W hT (ix3 (⟨st 0, by omega⟩ : Fin n) k q) (ix3 (⟨st 0, by omega⟩ : Fin n) q k) (fun ax => by
    match ax with
    | ⟨0, _⟩ => rfl
    | ⟨1, _⟩ => rfl
    | ⟨2, _⟩ => rfl)]
  -- the right side: the transpose exchanges the two axes, the reshape drops the unit axis, the slice shifts by its start
  rw [transpose_apply [1, 0] _ ht (ix2 k q) (ix2 q k) (fun ax => by
    match ax with
    | ⟨0, _⟩ => rfl
    | ⟨1, _⟩ => rfl)]
  rw [shapeCast_apply _ hc (ix2 q k) (ix3 (0 : Fin 1) q k) (by
    rw [Shape.rowMajor_val_three, Shape.rowMajor_val_two]
    show ((0 : ℕ) * a + q.val) * b + k.val = q.val * b + k.val
    rw [Nat.zero_mul, Nat.zero_add])]
  rw [extractStridedSlice_apply st W hs (ix3 (0 : Fin 1) q k) (ix3 (⟨st 0, by omega⟩ : Fin n) q k) (fun ax => by
    match ax with
    | ⟨0, _⟩ => show st 0 = st 0 + 0; omega
    | ⟨1, _⟩ => show q.val = st 1 + q.val; omega
    | ⟨2, _⟩ => show k.val = st 2 + k.val; omega)]

end Cert.LibSlabSwap
-- ==== Proof.Params.lean ====
/-
  The kernel program prepares its parameters differently from the specification: it swaps the last two axes of a whole
  stack of three weight matrices and then cuts slab l out, where the specification cuts slab l out and transposes
  it; and it reshapes a bias vector to one row, where the specification broadcasts it along a new leading axis. Both
  pairs are the same arrays: entry (k, q) of either weight matrix is entry (l, q, k) of the stack, and entry (0, q)
  of either row is entry q of the vector.
-/
import Idealize.ShloMosaic.Lib.Pipeline.Value
import Idealize.ShloMosaic.Lib.ValueIdx
import proofs.«155130_j4260607558136_2_alg».proof.Proof.Spec
import proofs.«155130_j4260607558136_2_alg».proof.Proof.LibRow
import proofs.«155130_j4260607558136_2_alg».proof.Proof.LibSlabSwap

noncomputable section

namespace Cert.Params

open Idealize.ShloMosaic Idealize.ShloMosaic.ValueIdx Cert.ReferenceIdeal

variable [Cert.ReferenceIdeal.Facts]

/-- Slab `st 0` of the stack with its last two axes swapped is slab `st 0` of the stack, transposed: both read the
    stack at (st 0, q, k) at entry (k, q), when the slab starts at row 0 and column 0. -/
theorem wSlab_eq (W : FVec Ideal S3x256x256 .f32) (st : Fin 3 → ℕ) (h1 : st 1 = 0) (h2 : st 2 = 0)
    (hT : S3x256x256.Transposes [0, 2, 1] S3x256x256) (hs : S3x256x256.Slices st S1x256x256)
    (hc : S1x256x256.ShapeCasts S256x256) :
    shapeCast S256x256 (extractStridedSlice S1x256x256 st (transpose S3x256x256 [0, 2, 1] W hT) hs) hc
      = Cert.Net.wSlab W st hs := by
  unfold Cert.Net.wSlab
  exact Cert.LibSlabSwap.slab_swap_eq W st h1 h2 hT hs hc hs _ _

/-- A bias vector reshaped to one row is its broadcast along a new leading unit axis. -/
theorem bRow_eq (b : FVec Ideal S3x256 .f32) (st : Fin 2 → ℕ) (hs : S3x256.Slices st S1x256)
    (h1 : S1x256.ShapeCasts S256) (h2 : S256.ShapeCasts S1x256) :
    shapeCast S1x256 (shapeCast S256 (extractStridedSlice S1x256 st b hs) h1) h2 = Cert.Net.bRow b st hs :=
  Cert.LibRow.reshape_row_eq_broadcast _ _ _

end Cert.Params

end
-- ==== Proof.LibKeepHost.lean ====
/-
  A buffer that a line of host operations never writes keeps its contents through the line.

  `keep_host ops` closes a goal `StableHlo.after ops V (Proc.devRef .tc b) = V (Proc.devRef .tc b)` for a named literal
  list `ops` of the host builders' operations (nullary … quaternary, reshape, binaryIndexed) and a literal reference
  `b`: it unfolds the list, reads off each operation's result buffer and tells `b` apart from it by deciding the
  inequality of the two references. It is the step a value certificate of a program with several regions takes once
  per (stretch of host operations, buffer still to be read).
-/
import Idealize.ShloMosaic.Lib.StableHlo.Run

namespace Cert.LibKeepHost

open Idealize.ShloMosaic

/-- The buffer is none of the line's result buffers, so the line leaves it as it found it. -/
macro "keep_host" ops:ident : tactic => `(tactic| exact StableHlo.after_of_forall_not_mem _ _ (List.forall_iff_forall_mem.mp (by
          simp only [$ops:ident, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

end Cert.LibKeepHost
-- ==== Proof.Trace.lean ====
/-
  The kernel program's result, followed through its run. The run is a fold: the launch memory, then six times a
  stretch of host operations followed by a region. A host operation rewrites only its own result buffer; a region
  rewrites only its output array. So at every boundary each buffer still to be read holds a known function of the
  argument arrays: the edge table's two rows, the inverse degrees and the transposed weight stacks are computed once
  before the first region and never written again; each layer's edge image, mean of messages and updated node
  features are computed in turn. After the last region the result buffer holds the three-layer network of the arguments.
-/
import proofs.«155130_j4260607558136_2_alg».proof.Proof.Gen.KernelIdeal.Frame
import proofs.«155130_j4260607558136_2_alg».proof.Proof.Gen.ReferenceIdeal
import proofs.«155130_j4260607558136_2_alg».proof.Proof.Spec
import proofs.«155130_j4260607558136_2_alg».proof.Proof.Params
import proofs.«155130_j4260607558136_2_alg».proof.Proof.LibKeepHost

set_option maxRecDepth 16384

noncomputable section

namespace Cert.Trace

open Idealize.ShloMosaic Idealize.ShloMosaic.TcCoe Idealize.SL.Sem
open Cert.KernelIdeal Cert.KernelIdeal.Gen

/-- Region 0 leaves the affine image of the edge attributes of the arrays it finds. -/
def Leaves0 : Prop := ∀ (V : (c : Dev nD) → (b : Ref sig .tc) → Buf (Elt Ideal) ((c : Thread nD τ).loc b)) (c : Dev nD),
    (dat0 (F := Ideal) V c).arrAt 3 cfg0.N
      = Cert.Net.edge (V c (Pipeline.arrRef spec0 0)) (V c (Pipeline.arrRef spec0 1)) (V c (Pipeline.arrRef spec0 2))
/-- Region 1 leaves the rectified sum of the two products and the bias of the arrays it finds. -/
def Leaves1 : Prop := ∀ (V : (c : Dev nD) → (b : Ref sig .tc) → Buf (Elt Ideal) ((c : Thread nD τ).loc b)) (c : Dev nD),
    (dat1 (F := Ideal) V c).arrAt 5 cfg1.N
      = Cert.Net.upd (V c (Pipeline.arrRef spec1 0)) (V c (Pipeline.arrRef spec1 1)) (V c (Pipeline.arrRef spec1 2)) (V c (Pipeline.arrRef spec1 3)) (V c (Pipeline.arrRef spec1 4))
/-- Region 2 leaves the affine image of the edge attributes of the arrays it finds. -/
def Leaves2 : Prop := ∀ (V : (c : Dev nD) → (b : Ref sig .tc) → Buf (Elt Ideal) ((c : Thread nD τ).loc b)) (c : Dev nD),
    (dat2 (F := Ideal) V c).arrAt 3 cfg2.N
      = Cert.Net.edge (V c (Pipeline.arrRef spec2 0)) (V c (Pipeline.arrRef spec2 1)) (V c (Pipeline.arrRef spec2 2))
/-- Region 3 leaves the rectified sum of the two products and the bias of the arrays it finds. -/
def Leaves3 : Prop := ∀ (V : (c : Dev nD) → (b : Ref sig .tc) → Buf (Elt Ideal) ((c : Thread nD τ).loc b)) (c : Dev nD),
    (dat3 (F := Ideal) V c).arrAt 5 cfg3.N
      = Cert.Net.upd (V c (Pipeline.arrRef spec3 0)) (V c (Pipeline.arrRef spec3 1)) (V c (Pipeline.arrRef spec3 2)) (V c (Pipeline.arrRef spec3 3)) (V c (Pipeline.arrRef spec3 4))
/-- Region 4 leaves the affine image of the edge attributes of the arrays it finds. -/
def Leaves4 : Prop := ∀ (V : (c : Dev nD) → (b : Ref sig .tc) → Buf (Elt Ideal) ((c : Thread nD τ).loc b)) (c : Dev nD),
    (dat4 (F := Ideal) V c).arrAt 3 cfg4.N
      = Cert.Net.edge (V c (Pipeline.arrRef spec4 0)) (V c (Pipeline.arrRef spec4 1)) (V c (Pipeline.arrRef spec4 2))
/-- Region 5 leaves the rectified sum of the two products and the bias of the arrays it finds. -/
def Leaves5 : Prop := ∀ (V : (c : Dev nD) → (b : Ref sig .tc) → Buf (Elt Ideal) ((c : Thread nD τ).loc b)) (c : Dev nD),
    (dat5 (F := Ideal) V c).arrAt 5 cfg5.N
      = Cert.Net.upd (V c (Pipeline.arrRef spec5 0)) (V c (Pipeline.arrRef spec5 1)) (V c (Pipeline.arrRef spec5 2)) (V c (Pipeline.arrRef spec5 3)) (V c (Pipeline.arrRef spec5 4))

/-- What each of the six regions leaves in its output array, for any contents at its entry. -/
structure RegionValues : Prop where
  e0 : Leaves0
  u1 : Leaves1
  e2 : Leaves2
  u3 : Leaves3
  e4 : Leaves4
  u5 : Leaves5

/-- The edges' source nodes, row 0 of the edge table. -/
def srcVec (ei : Cert.Net.Arr Cert.ReferenceIdeal.S2x400000 .i32) : Cert.Net.Arr Cert.ReferenceIdeal.S400000 .i32 :=
  shapeCast Cert.ReferenceIdeal.S400000 (extractStridedSlice Cert.ReferenceIdeal.S1x400000 ![0, 0] ei Cert.ReferenceIdeal.Facts₀.slices_S2x400000_S1x400000_0_0) Cert.ReferenceIdeal.Facts₀.shapeCasts_S1x400000_S400000
/-- The edges' target nodes, row 1 of the edge table. -/
def dstVec (ei : Cert.Net.Arr Cert.ReferenceIdeal.S2x400000 .i32) : Cert.Net.Arr Cert.ReferenceIdeal.S400000 .i32 :=
  shapeCast Cert.ReferenceIdeal.S400000 (extractStridedSlice Cert.ReferenceIdeal.S1x400000 ![1, 0] ei Cert.ReferenceIdeal.Facts₀.slices_S2x400000_S1x400000_1_0) Cert.ReferenceIdeal.Facts₀.shapeCasts_S1x400000_S400000
/-- A stack of three square matrices with the last two axes of every matrix swapped. -/
def swapLast (W : FVec Ideal Cert.ReferenceIdeal.S3x256x256 .f32) : FVec Ideal Cert.ReferenceIdeal.S3x256x256 .f32 :=
  transpose Cert.ReferenceIdeal.S3x256x256 [0, 2, 1] W Cert.KernelIdeal.Facts₀.transposes_S3x256x256_S3x256x256_0_2_1

/-- Layer 1's edge messages' affine part. -/
def el0 (m : (ℓ : Loc nD τ sig) → Buf (Elt Ideal) ℓ) (c : Dev nD) : FVec Ideal Cert.ReferenceIdeal.S400000x256 .f32 :=
  Cert.Net.edge (m ((c : Thread nD τ).loc main_arg1)) (Cert.Net.eSlab (m ((c : Thread nD τ).loc main_arg6)) ![0, 0, 0] Cert.ReferenceIdeal.Facts₀.slices_S3x256x64_S1x256x64_0_0_0) (Cert.Net.bRow (m ((c : Thread nD τ).loc main_arg7)) ![0, 0] Cert.ReferenceIdeal.Facts₀.slices_S3x256_S1x256_0_0)
/-- Layer 1's mean of the messages arriving at each node. -/
def ag0 (m : (ℓ : Loc nD τ sig) → Buf (Elt Ideal) ℓ) (c : Dev nD) : FVec Ideal Cert.ReferenceIdeal.S50000x256 .f32 :=
  Cert.Net.agg (m ((c : Thread nD τ).loc main_arg0)) (el0 m c) (m ((c : Thread nD τ).loc main_arg2))
/-- The node features after layer 1. -/
def x1 (m : (ℓ : Loc nD τ sig) → Buf (Elt Ideal) ℓ) (c : Dev nD) : FVec Ideal Cert.ReferenceIdeal.S50000x256 .f32 :=
  Cert.Net.upd (ag0 m c) (m ((c : Thread nD τ).loc main_arg0)) (Cert.Net.wSlab (m ((c : Thread nD τ).loc main_arg3)) ![0, 0, 0] Cert.ReferenceIdeal.Facts₀.slices_S3x256x256_S1x256x256_0_0_0) (Cert.Net.bRow (m ((c : Thread nD τ).loc main_arg4)) ![0, 0] Cert.ReferenceIdeal.Facts₀.slices_S3x256_S1x256_0_0) (Cert.Net.wSlab (m ((c : Thread nD τ).loc main_arg5)) ![0, 0, 0] Cert.ReferenceIdeal.Facts₀.slices_S3x256x256_S1x256x256_0_0_0)
/-- Layer 2's edge messages' affine part. -/
def el1 (m : (ℓ : Loc nD τ sig) → Buf (Elt Ideal) ℓ) (c : Dev nD) : FVec Ideal Cert.ReferenceIdeal.S400000x256 .f32 :=
  Cert.Net.edge (m ((c : Thread nD τ).loc main_arg1)) (Cert.Net.eSlab (m ((c : Thread nD τ).loc main_arg6)) ![1, 0, 0] Cert.ReferenceIdeal.Facts₀.slices_S3x256x64_S1x256x64_1_0_0) (Cert.Net.bRow (m ((c : Thread nD τ).loc main_arg7)) ![1, 0] Cert.ReferenceIdeal.Facts₀.slices_S3x256_S1x256_1_0)
/-- Layer 2's mean of the messages arriving at each node. -/
def ag1 (m : (ℓ : Loc nD τ sig) → Buf (Elt Ideal) ℓ) (c : Dev nD) : FVec Ideal Cert.ReferenceIdeal.S50000x256 .f32 :=
  Cert.Net.agg (x1 m c) (el1 m c) (m ((c : Thread nD τ).loc main_arg2))
/-- The node features after layer 2. -/
def x2 (m : (ℓ : Loc nD τ sig) → Buf (Elt Ideal) ℓ) (c : Dev nD) : FVec Ideal Cert.ReferenceIdeal.S50000x256 .f32 :=
  Cert.Net.upd (ag1 m c) (x1 m c) (Cert.Net.wSlab (m ((c : Thread nD τ).loc main_arg3)) ![1, 0, 0] Cert.ReferenceIdeal.Facts₀.slices_S3x256x256_S1x256x256_1_0_0) (Cert.Net.bRow (m ((c : Thread nD τ).loc main_arg4)) ![1, 0] Cert.ReferenceIdeal.Facts₀.slices_S3x256_S1x256_1_0) (Cert.Net.wSlab (m ((c : Thread nD τ).loc main_arg5)) ![1, 0, 0] Cert.ReferenceIdeal.Facts₀.slices_S3x256x256_S1x256x256_1_0_0)
/-- Layer 3's edge messages' affine part. -/
def el2 (m : (ℓ : Loc nD τ sig) → Buf (Elt Ideal) ℓ) (c : Dev nD) : FVec Ideal Cert.ReferenceIdeal.S400000x256 .f32 :=
  Cert.Net.edge (m ((c : Thread nD τ).loc main_arg1)) (Cert.Net.eSlab (m ((c : Thread nD τ).loc main_arg6)) ![2, 0, 0] Cert.ReferenceIdeal.Facts₀.slices_S3x256x64_S1x256x64_2_0_0) (Cert.Net.bRow (m ((c : Thread nD τ).loc main_arg7)) ![2, 0] Cert.ReferenceIdeal.Facts₀.slices_S3x256_S1x256_2_0)
/-- Layer 3's mean of the messages arriving at each node. -/
def ag2 (m : (ℓ : Loc nD τ sig) → Buf (Elt Ideal) ℓ) (c : Dev nD) : FVec Ideal Cert.ReferenceIdeal.S50000x256 .f32 :=
  Cert.Net.agg (x2 m c) (el2 m c) (m ((c : Thread nD τ).loc main_arg2))
/-- The node features after layer 3. -/
def x3 (m : (ℓ : Loc nD τ sig) → Buf (Elt Ideal) ℓ) (c : Dev nD) : FVec Ideal Cert.ReferenceIdeal.S50000x256 .f32 :=
  Cert.Net.upd (ag2 m c) (x2 m c) (Cert.Net.wSlab (m ((c : Thread nD τ).loc main_arg3)) ![2, 0, 0] Cert.ReferenceIdeal.Facts₀.slices_S3x256x256_S1x256x256_2_0_0) (Cert.Net.bRow (m ((c : Thread nD τ).loc main_arg4)) ![2, 0] Cert.ReferenceIdeal.Facts₀.slices_S3x256_S1x256_2_0) (Cert.Net.wSlab (m ((c : Thread nD τ).loc main_arg5)) ![2, 0, 0] Cert.ReferenceIdeal.Facts₀.slices_S3x256x256_S1x256x256_2_0_0)

/-- The features after the third layer are the network of the arguments. -/
theorem x3_eq (m : (ℓ : Loc nD τ sig) → Buf (Elt Ideal) ℓ) (c : Dev nD) :
    x3 m c = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold x3 ag2 el2 x2 ag1 el1 x1 ag0 el0 Cert.Net.net Cert.Net.layer
  rfl

variable (R : RegionValues) (m : (ℓ : Loc nD τ sig) → Buf (Elt Ideal) ℓ) (ρ : Dev nD → PrngReg) (c : Dev nD)

/-! ## Before the first region -/

theorem w1_arg0 : W1 m ρ c (Proc.devRef .tc main_arg0) = (m ((c : Thread nD τ).loc main_arg0)) :=
  (show W1 m ρ c (Proc.devRef .tc main_arg0) = W0 m ρ c (Proc.devRef .tc main_arg0) by keep_host hostOps0).trans rfl

theorem w1_arg1 : W1 m ρ c (Proc.devRef .tc main_arg1) = (m ((c : Thread nD τ).loc main_arg1)) :=
  (show W1 m ρ c (Proc.devRef .tc main_arg1) = W0 m ρ c (Proc.devRef .tc main_arg1) by keep_host hostOps0).trans rfl

theorem w1_arg4 : W1 m ρ c (Proc.devRef .tc main_arg4) = (m ((c : Thread nD τ).loc main_arg4)) :=
  (show W1 m ρ c (Proc.devRef .tc main_arg4) = W0 m ρ c (Proc.devRef .tc main_arg4) by keep_host hostOps0).trans rfl

theorem w1_arg6 : W1 m ρ c (Proc.devRef .tc main_arg6) = (m ((c : Thread nD τ).loc main_arg6)) :=
  (show W1 m ρ c (Proc.devRef .tc main_arg6) = W0 m ρ c (Proc.devRef .tc main_arg6) by keep_host hostOps0).trans rfl

theorem w1_arg7 : W1 m ρ c (Proc.devRef .tc main_arg7) = (m ((c : Thread nD τ).loc main_arg7)) :=
  (show W1 m ρ c (Proc.devRef .tc main_arg7) = W0 m ρ c (Proc.devRef .tc main_arg7) by keep_host hostOps0).trans rfl

theorem w1_v1 : W1 m ρ c (Proc.devRef .tc main_v1) = (srcVec (m ((c : Thread nD τ).loc main_arg2))) :=
  by
  show StableHlo.after hostOps0 (W0 m ρ c) (Proc.devRef .tc main_v1) = _
  dsimp only [hostOps0]
  after_results_simp
  rfl

theorem w1_v3 : W1 m ρ c (Proc.devRef .tc main_v3) = (dstVec (m ((c : Thread nD τ).loc main_arg2))) :=
  by
  show StableHlo.after hostOps0 (W0 m ρ c) (Proc.devRef .tc main_v3) = _
  dsimp only [hostOps0]
  after_results_simp
  rfl

theorem w1_v12 : W1 m ρ c (Proc.devRef .tc main_v12) = (Cert.Net.invDeg (m ((c : Thread nD τ).loc main_arg2))) :=
  by
  show StableHlo.after hostOps0 (W0 m ρ c) (Proc.devRef .tc main_v12) = _
  dsimp only [hostOps0]
  after_results_simp
  rfl

theorem w1_v13 : W1 m ρ c (Proc.devRef .tc main_v13) = (swapLast (m ((c : Thread nD τ).loc main_arg3))) :=
  by
  show StableHlo.after hostOps0 (W0 m ρ c) (Proc.devRef .tc main_v13) = _
  dsimp only [hostOps0]
  after_results_simp
  rfl

theorem w1_v14 : W1 m ρ c (Proc.devRef .tc main_v14) = (swapLast (m ((c : Thread nD τ).loc main_arg5))) :=
  by
  show StableHlo.after hostOps0 (W0 m ρ c) (Proc.devRef .tc main_v14) = _
  dsimp only [hostOps0]
  after_results_simp
  rfl

theorem w1_v19 : W1 m ρ c (Proc.devRef .tc main_v19) = (Cert.Net.eSlab (m ((c : Thread nD τ).loc main_arg6)) ![0, 0, 0] Cert.ReferenceIdeal.Facts₀.slices_S3x256x64_S1x256x64_0_0_0) :=
  by
  show StableHlo.after hostOps0 (W0 m ρ c) (Proc.devRef .tc main_v19) = _
  dsimp only [hostOps0]
  after_results_simp
  rfl

theorem w1_v20 : W1 m ρ c (Proc.devRef .tc main_v20) = (Cert.Net.bRow (m ((c : Thread nD τ).loc main_arg7)) ![0, 0] Cert.ReferenceIdeal.Facts₀.slices_S3x256_S1x256_0_0) :=
  by
  show StableHlo.after hostOps0 (W0 m ρ c) (Proc.devRef .tc main_v20) = _
  dsimp only [hostOps0]
  after_results_simp
  exact Cert.Params.bRow_eq _ _ _ _ _

include R

/-! ## The three layers -/

theorem w2_v21 : W2 m ρ c (Proc.devRef .tc main_v21) = (el0 m c) :=
  (W2_arr m ρ c 3).trans ((R.e0 (V1 m ρ) c).trans (by
    show Cert.Net.edge (W1 m ρ c (Proc.devRef .tc main_arg1)) (W1 m ρ c (Proc.devRef .tc main_v19)) (W1 m ρ c (Proc.devRef .tc main_v20)) = _
    rw [w1_arg1 m ρ c, w1_v19 m ρ c, w1_v20 m ρ c]
    try rfl))

theorem w2_v1 : W2 m ρ c (Proc.devRef .tc main_v1) = (srcVec (m ((c : Thread nD τ).loc main_arg2))) :=
  (W2_of_ne m ρ c main_v1 (by decide)).trans (w1_v1 m ρ c)

theorem w2_v3 : W2 m ρ c (Proc.devRef .tc main_v3) = (dstVec (m ((c : Thread nD τ).loc main_arg2))) :=
  (W2_of_ne m ρ c main_v3 (by decide)).trans (w1_v3 m ρ c)

theorem w2_v12 : W2 m ρ c (Proc.devRef .tc main_v12) = (Cert.Net.invDeg (m ((c : Thread nD τ).loc main_arg2))) :=
  (W2_of_ne m ρ c main_v12 (by decide)).trans (w1_v12 m ρ c)

theorem w2_v13 : W2 m ρ c (Proc.devRef .tc main_v13) = (swapLast (m ((c : Thread nD τ).loc main_arg3))) :=
  (W2_of_ne m ρ c main_v13 (by decide)).trans (w1_v13 m ρ c)

theorem w2_v14 : W2 m ρ c (Proc.devRef .tc main_v14) = (swapLast (m ((c : Thread nD τ).loc main_arg5))) :=
  (W2_of_ne m ρ c main_v14 (by decide)).trans (w1_v14 m ρ c)

theorem w2_arg4 : W2 m ρ c (Proc.devRef .tc main_arg4) = (m ((c : Thread nD τ).loc main_arg4)) :=
  (W2_of_ne m ρ c main_arg4 (by decide)).trans (w1_arg4 m ρ c)

theorem w2_arg1 : W2 m ρ c (Proc.devRef .tc main_arg1) = (m ((c : Thread nD τ).loc main_arg1)) :=
  ((W2_arr m ρ c 0).trans (((dat0 (V1 m ρ) c).arrAt_in 0 rfl _).trans (A_eq0 (V1 m ρ) c 0))).trans (w1_arg1 m ρ c)

theorem w2_arg6 : W2 m ρ c (Proc.devRef .tc main_arg6) = (m ((c : Thread nD τ).loc main_arg6)) :=
  (W2_of_ne m ρ c main_arg6 (by decide)).trans (w1_arg6 m ρ c)

theorem w2_arg7 : W2 m ρ c (Proc.devRef .tc main_arg7) = (m ((c : Thread nD τ).loc main_arg7)) :=
  (W2_of_ne m ρ c main_arg7 (by decide)).trans (w1_arg7 m ρ c)

theorem w2_arg0 : W2 m ρ c (Proc.devRef .tc main_arg0) = (m ((c : Thread nD τ).loc main_arg0)) :=
  (W2_of_ne m ρ c main_arg0 (by decide)).trans (w1_arg0 m ρ c)

theorem w3_v34 : W3 m ρ c (Proc.devRef .tc main_v34) = (ag0 m c) :=
  by
  show StableHlo.after hostOps1 (W2 m ρ c) (Proc.devRef .tc main_v34) = _
  dsimp only [hostOps1]
  after_results_simp
  rw [w2_v1 R m ρ c, w2_v3 R m ρ c, w2_arg0 R m ρ c, w2_v21 R m ρ c, w2_v12 R m ρ c]
  rfl

theorem w3_v36 : W3 m ρ c (Proc.devRef .tc main_v36) = (Cert.Net.wSlab (m ((c : Thread nD τ).loc main_arg3)) ![0, 0, 0] Cert.ReferenceIdeal.Facts₀.slices_S3x256x256_S1x256x256_0_0_0) :=
  by
  show StableHlo.after hostOps1 (W2 m ρ c) (Proc.devRef .tc main_v36) = _
  dsimp only [hostOps1]
  after_results_simp
  rw [w2_v13 R m ρ c]
  exact Cert.Params.wSlab_eq _ _ rfl rfl _ _ _

theorem w3_v41 : W3 m ρ c (Proc.devRef .tc main_v41) = (Cert.Net.bRow (m ((c : Thread nD τ).loc main_arg4)) ![0, 0] Cert.ReferenceIdeal.Facts₀.slices_S3x256_S1x256_0_0) :=
  by
  show StableHlo.after hostOps1 (W2 m ρ c) (Proc.devRef .tc main_v41) = _
  dsimp only [hostOps1]
  after_results_simp
  rw [w2_arg4 R m ρ c]
  exact Cert.Params.bRow_eq _ _ _ _ _

theorem w3_v40 : W3 m ρ c (Proc.devRef .tc main_v40) = (Cert.Net.wSlab (m ((c : Thread nD τ).loc main_arg5)) ![0, 0, 0] Cert.ReferenceIdeal.Facts₀.slices_S3x256x256_S1x256x256_0_0_0) :=
  by
  show StableHlo.after hostOps1 (W2 m ρ c) (Proc.devRef .tc main_v40) = _
  dsimp only [hostOps1]
  after_results_simp
  rw [w2_v14 R m ρ c]
  exact Cert.Params.wSlab_eq _ _ rfl rfl _ _ _

theorem w3_v1 : W3 m ρ c (Proc.devRef .tc main_v1) = (srcVec (m ((c : Thread nD τ).loc main_arg2))) :=
  (show W3 m ρ c (Proc.devRef .tc main_v1) = W2 m ρ c (Proc.devRef .tc main_v1) by keep_host hostOps1).trans (w2_v1 R m ρ c)

theorem w3_v3 : W3 m ρ c (Proc.devRef .tc main_v3) = (dstVec (m ((c : Thread nD τ).loc main_arg2))) :=
  (show W3 m ρ c (Proc.devRef .tc main_v3) = W2 m ρ c (Proc.devRef .tc main_v3) by keep_host hostOps1).trans (w2_v3 R m ρ c)

theorem w3_v12 : W3 m ρ c (Proc.devRef .tc main_v12) = (Cert.Net.invDeg (m ((c : Thread nD τ).loc main_arg2))) :=
  (show W3 m ρ c (Proc.devRef .tc main_v12) = W2 m ρ c (Proc.devRef .tc main_v12) by keep_host hostOps1).trans (w2_v12 R m ρ c)

theorem w3_v13 : W3 m ρ c (Proc.devRef .tc main_v13) = (swapLast (m ((c : Thread nD τ).loc main_arg3))) :=
  (show W3 m ρ c (Proc.devRef .tc main_v13) = W2 m ρ c (Proc.devRef .tc main_v13) by keep_host hostOps1).trans (w2_v13 R m ρ c)

theorem w3_v14 : W3 m ρ c (Proc.devRef .tc main_v14) = (swapLast (m ((c : Thread nD τ).loc main_arg5))) :=
  (show W3 m ρ c (Proc.devRef .tc main_v14) = W2 m ρ c (Proc.devRef .tc main_v14) by keep_host hostOps1).trans (w2_v14 R m ρ c)

theorem w3_arg4 : W3 m ρ c (Proc.devRef .tc main_arg4) = (m ((c : Thread nD τ).loc main_arg4)) :=
  (show W3 m ρ c (Proc.devRef .tc main_arg4) = W2 m ρ c (Proc.devRef .tc main_arg4) by keep_host hostOps1).trans (w2_arg4 R m ρ c)

theorem w3_arg1 : W3 m ρ c (Proc.devRef .tc main_arg1) = (m ((c : Thread nD τ).loc main_arg1)) :=
  (show W3 m ρ c (Proc.devRef .tc main_arg1) = W2 m ρ c (Proc.devRef .tc main_arg1) by keep_host hostOps1).trans (w2_arg1 R m ρ c)

theorem w3_arg6 : W3 m ρ c (Proc.devRef .tc main_arg6) = (m ((c : Thread nD τ).loc main_arg6)) :=
  (show W3 m ρ c (Proc.devRef .tc main_arg6) = W2 m ρ c (Proc.devRef .tc main_arg6) by keep_host hostOps1).trans (w2_arg6 R m ρ c)

theorem w3_arg7 : W3 m ρ c (Proc.devRef .tc main_arg7) = (m ((c : Thread nD τ).loc main_arg7)) :=
  (show W3 m ρ c (Proc.devRef .tc main_arg7) = W2 m ρ c (Proc.devRef .tc main_arg7) by keep_host hostOps1).trans (w2_arg7 R m ρ c)

theorem w3_arg0 : W3 m ρ c (Proc.devRef .tc main_arg0) = (m ((c : Thread nD τ).loc main_arg0)) :=
  (show W3 m ρ c (Proc.devRef .tc main_arg0) = W2 m ρ c (Proc.devRef .tc main_arg0) by keep_host hostOps1).trans (w2_arg0 R m ρ c)

theorem w4_v42 : W4 m ρ c (Proc.devRef .tc main_v42) = (x1 m c) :=
  (W4_arr m ρ c 5).trans ((R.u1 (V3 m ρ) c).trans (by
    show Cert.Net.upd (W3 m ρ c (Proc.devRef .tc main_v34)) (W3 m ρ c (Proc.devRef .tc main_arg0)) (W3 m ρ c (Proc.devRef .tc main_v36)) (W3 m ρ c (Proc.devRef .tc main_v41)) (W3 m ρ c (Proc.devRef .tc main_v40)) = _
    rw [w3_v34 R m ρ c, w3_arg0 R m ρ c, w3_v36 R m ρ c, w3_v41 R m ρ c, w3_v40 R m ρ c]
    try rfl))

theorem w4_v1 : W4 m ρ c (Proc.devRef .tc main_v1) = (srcVec (m ((c : Thread nD τ).loc main_arg2))) :=
  (W4_of_ne m ρ c main_v1 (by decide)).trans (w3_v1 R m ρ c)

theorem w4_v3 : W4 m ρ c (Proc.devRef .tc main_v3) = (dstVec (m ((c : Thread nD τ).loc main_arg2))) :=
  (W4_of_ne m ρ c main_v3 (by decide)).trans (w3_v3 R m ρ c)

theorem w4_v12 : W4 m ρ c (Proc.devRef .tc main_v12) = (Cert.Net.invDeg (m ((c : Thread nD τ).loc main_arg2))) :=
  (W4_of_ne m ρ c main_v12 (by decide)).trans (w3_v12 R m ρ c)

theorem w4_v13 : W4 m ρ c (Proc.devRef .tc main_v13) = (swapLast (m ((c : Thread nD τ).loc main_arg3))) :=
  (W4_of_ne m ρ c main_v13 (by decide)).trans (w3_v13 R m ρ c)

theorem w4_v14 : W4 m ρ c (Proc.devRef .tc main_v14) = (swapLast (m ((c : Thread nD τ).loc main_arg5))) :=
  (W4_of_ne m ρ c main_v14 (by decide)).trans (w3_v14 R m ρ c)

theorem w4_arg4 : W4 m ρ c (Proc.devRef .tc main_arg4) = (m ((c : Thread nD τ).loc main_arg4)) :=
  (W4_of_ne m ρ c main_arg4 (by decide)).trans (w3_arg4 R m ρ c)

theorem w4_arg1 : W4 m ρ c (Proc.devRef .tc main_arg1) = (m ((c : Thread nD τ).loc main_arg1)) :=
  (W4_of_ne m ρ c main_arg1 (by decide)).trans (w3_arg1 R m ρ c)

theorem w4_arg6 : W4 m ρ c (Proc.devRef .tc main_arg6) = (m ((c : Thread nD τ).loc main_arg6)) :=
  (W4_of_ne m ρ c main_arg6 (by decide)).trans (w3_arg6 R m ρ c)

theorem w4_arg7 : W4 m ρ c (Proc.devRef .tc main_arg7) = (m ((c : Thread nD τ).loc main_arg7)) :=
  (W4_of_ne m ρ c main_arg7 (by decide)).trans (w3_arg7 R m ρ c)

theorem w5_v47 : W5 m ρ c (Proc.devRef .tc main_v47) = (Cert.Net.eSlab (m ((c : Thread nD τ).loc main_arg6)) ![1, 0, 0] Cert.ReferenceIdeal.Facts₀.slices_S3x256x64_S1x256x64_1_0_0) :=
  by
  show StableHlo.after hostOps2 (W4 m ρ c) (Proc.devRef .tc main_v47) = _
  dsimp only [hostOps2]
  after_results_simp
  rw [w4_arg6 R m ρ c]
  rfl

theorem w5_v48 : W5 m ρ c (Proc.devRef .tc main_v48) = (Cert.Net.bRow (m ((c : Thread nD τ).loc main_arg7)) ![1, 0] Cert.ReferenceIdeal.Facts₀.slices_S3x256_S1x256_1_0) :=
  by
  show StableHlo.after hostOps2 (W4 m ρ c) (Proc.devRef .tc main_v48) = _
  dsimp only [hostOps2]
  after_results_simp
  rw [w4_arg7 R m ρ c]
  exact Cert.Params.bRow_eq _ _ _ _ _

theorem w5_v1 : W5 m ρ c (Proc.devRef .tc main_v1) = (srcVec (m ((c : Thread nD τ).loc main_arg2))) :=
  (show W5 m ρ c (Proc.devRef .tc main_v1) = W4 m ρ c (Proc.devRef .tc main_v1) by keep_host hostOps2).trans (w4_v1 R m ρ c)

theorem w5_v3 : W5 m ρ c (Proc.devRef .tc main_v3) = (dstVec (m ((c : Thread nD τ).loc main_arg2))) :=
  (show W5 m ρ c (Proc.devRef .tc main_v3) = W4 m ρ c (Proc.devRef .tc main_v3) by keep_host hostOps2).trans (w4_v3 R m ρ c)

theorem w5_v12 : W5 m ρ c (Proc.devRef .tc main_v12) = (Cert.Net.invDeg (m ((c : Thread nD τ).loc main_arg2))) :=
  (show W5 m ρ c (Proc.devRef .tc main_v12) = W4 m ρ c (Proc.devRef .tc main_v12) by keep_host hostOps2).trans (w4_v12 R m ρ c)

theorem w5_v13 : W5 m ρ c (Proc.devRef .tc main_v13) = (swapLast (m ((c : Thread nD τ).loc main_arg3))) :=
  (show W5 m ρ c (Proc.devRef .tc main_v13) = W4 m ρ c (Proc.devRef .tc main_v13) by keep_host hostOps2).trans (w4_v13 R m ρ c)

theorem w5_v14 : W5 m ρ c (Proc.devRef .tc main_v14) = (swapLast (m ((c : Thread nD τ).loc main_arg5))) :=
  (show W5 m ρ c (Proc.devRef .tc main_v14) = W4 m ρ c (Proc.devRef .tc main_v14) by keep_host hostOps2).trans (w4_v14 R m ρ c)

theorem w5_arg4 : W5 m ρ c (Proc.devRef .tc main_arg4) = (m ((c : Thread nD τ).loc main_arg4)) :=
  (show W5 m ρ c (Proc.devRef .tc main_arg4) = W4 m ρ c (Proc.devRef .tc main_arg4) by keep_host hostOps2).trans (w4_arg4 R m ρ c)

theorem w5_arg1 : W5 m ρ c (Proc.devRef .tc main_arg1) = (m ((c : Thread nD τ).loc main_arg1)) :=
  (show W5 m ρ c (Proc.devRef .tc main_arg1) = W4 m ρ c (Proc.devRef .tc main_arg1) by keep_host hostOps2).trans (w4_arg1 R m ρ c)

theorem w5_arg6 : W5 m ρ c (Proc.devRef .tc main_arg6) = (m ((c : Thread nD τ).loc main_arg6)) :=
  (show W5 m ρ c (Proc.devRef .tc main_arg6) = W4 m ρ c (Proc.devRef .tc main_arg6) by keep_host hostOps2).trans (w4_arg6 R m ρ c)

theorem w5_arg7 : W5 m ρ c (Proc.devRef .tc main_arg7) = (m ((c : Thread nD τ).loc main_arg7)) :=
  (show W5 m ρ c (Proc.devRef .tc main_arg7) = W4 m ρ c (Proc.devRef .tc main_arg7) by keep_host hostOps2).trans (w4_arg7 R m ρ c)

theorem w5_v42 : W5 m ρ c (Proc.devRef .tc main_v42) = (x1 m c) :=
  (show W5 m ρ c (Proc.devRef .tc main_v42) = W4 m ρ c (Proc.devRef .tc main_v42) by keep_host hostOps2).trans (w4_v42 R m ρ c)

theorem w6_v49 : W6 m ρ c (Proc.devRef .tc main_v49) = (el1 m c) :=
  (W6_arr m ρ c 3).trans ((R.e2 (V5 m ρ) c).trans (by
    show Cert.Net.edge (W5 m ρ c (Proc.devRef .tc main_arg1)) (W5 m ρ c (Proc.devRef .tc main_v47)) (W5 m ρ c (Proc.devRef .tc main_v48)) = _
    rw [w5_arg1 R m ρ c, w5_v47 R m ρ c, w5_v48 R m ρ c]
    try rfl))

theorem w6_v1 : W6 m ρ c (Proc.devRef .tc main_v1) = (srcVec (m ((c : Thread nD τ).loc main_arg2))) :=
  (W6_of_ne m ρ c main_v1 (by decide)).trans (w5_v1 R m ρ c)

theorem w6_v3 : W6 m ρ c (Proc.devRef .tc main_v3) = (dstVec (m ((c : Thread nD τ).loc main_arg2))) :=
  (W6_of_ne m ρ c main_v3 (by decide)).trans (w5_v3 R m ρ c)

theorem w6_v12 : W6 m ρ c (Proc.devRef .tc main_v12) = (Cert.Net.invDeg (m ((c : Thread nD τ).loc main_arg2))) :=
  (W6_of_ne m ρ c main_v12 (by decide)).trans (w5_v12 R m ρ c)

theorem w6_v13 : W6 m ρ c (Proc.devRef .tc main_v13) = (swapLast (m ((c : Thread nD τ).loc main_arg3))) :=
  (W6_of_ne m ρ c main_v13 (by decide)).trans (w5_v13 R m ρ c)

theorem w6_v14 : W6 m ρ c (Proc.devRef .tc main_v14) = (swapLast (m ((c : Thread nD τ).loc main_arg5))) :=
  (W6_of_ne m ρ c main_v14 (by decide)).trans (w5_v14 R m ρ c)

theorem w6_arg4 : W6 m ρ c (Proc.devRef .tc main_arg4) = (m ((c : Thread nD τ).loc main_arg4)) :=
  (W6_of_ne m ρ c main_arg4 (by decide)).trans (w5_arg4 R m ρ c)

theorem w6_arg1 : W6 m ρ c (Proc.devRef .tc main_arg1) = (m ((c : Thread nD τ).loc main_arg1)) :=
  ((W6_arr m ρ c 0).trans (((dat2 (V5 m ρ) c).arrAt_in 0 rfl _).trans (A_eq2 (V5 m ρ) c 0))).trans (w5_arg1 R m ρ c)

theorem w6_arg6 : W6 m ρ c (Proc.devRef .tc main_arg6) = (m ((c : Thread nD τ).loc main_arg6)) :=
  (W6_of_ne m ρ c main_arg6 (by decide)).trans (w5_arg6 R m ρ c)

theorem w6_arg7 : W6 m ρ c (Proc.devRef .tc main_arg7) = (m ((c : Thread nD τ).loc main_arg7)) :=
  (W6_of_ne m ρ c main_arg7 (by decide)).trans (w5_arg7 R m ρ c)

theorem w6_v42 : W6 m ρ c (Proc.devRef .tc main_v42) = (x1 m c) :=
  (W6_of_ne m ρ c main_v42 (by decide)).trans (w5_v42 R m ρ c)

theorem w7_v62 : W7 m ρ c (Proc.devRef .tc main_v62) = (ag1 m c) :=
  by
  show StableHlo.after hostOps3 (W6 m ρ c) (Proc.devRef .tc main_v62) = _
  dsimp only [hostOps3]
  after_results_simp
  rw [w6_v1 R m ρ c, w6_v3 R m ρ c, w6_v42 R m ρ c, w6_v49 R m ρ c, w6_v12 R m ρ c]
  rfl

theorem w7_v64 : W7 m ρ c (Proc.devRef .tc main_v64) = (Cert.Net.wSlab (m ((c : Thread nD τ).loc main_arg3)) ![1, 0, 0] Cert.ReferenceIdeal.Facts₀.slices_S3x256x256_S1x256x256_1_0_0) :=
  by
  show StableHlo.after hostOps3 (W6 m ρ c) (Proc.devRef .tc main_v64) = _
  dsimp only [hostOps3]
  after_results_simp
  rw [w6_v13 R m ρ c]
  exact Cert.Params.wSlab_eq _ _ rfl rfl _ _ _

theorem w7_v69 : W7 m ρ c (Proc.devRef .tc main_v69) = (Cert.Net.bRow (m ((c : Thread nD τ).loc main_arg4)) ![1, 0] Cert.ReferenceIdeal.Facts₀.slices_S3x256_S1x256_1_0) :=
  by
  show StableHlo.after hostOps3 (W6 m ρ c) (Proc.devRef .tc main_v69) = _
  dsimp only [hostOps3]
  after_results_simp
  rw [w6_arg4 R m ρ c]
  exact Cert.Params.bRow_eq _ _ _ _ _

theorem w7_v68 : W7 m ρ c (Proc.devRef .tc main_v68) = (Cert.Net.wSlab (m ((c : Thread nD τ).loc main_arg5)) ![1, 0, 0] Cert.ReferenceIdeal.Facts₀.slices_S3x256x256_S1x256x256_1_0_0) :=
  by
  show StableHlo.after hostOps3 (W6 m ρ c) (Proc.devRef .tc main_v68) = _
  dsimp only [hostOps3]
  after_results_simp
  rw [w6_v14 R m ρ c]
  exact Cert.Params.wSlab_eq _ _ rfl rfl _ _ _

theorem w7_v1 : W7 m ρ c (Proc.devRef .tc main_v1) = (srcVec (m ((c : Thread nD τ).loc main_arg2))) :=
  (show W7 m ρ c (Proc.devRef .tc main_v1) = W6 m ρ c (Proc.devRef .tc main_v1) by keep_host hostOps3).trans (w6_v1 R m ρ c)

theorem w7_v3 : W7 m ρ c (Proc.devRef .tc main_v3) = (dstVec (m ((c : Thread nD τ).loc main_arg2))) :=
  (show W7 m ρ c (Proc.devRef .tc main_v3) = W6 m ρ c (Proc.devRef .tc main_v3) by keep_host hostOps3).trans (w6_v3 R m ρ c)

theorem w7_v12 : W7 m ρ c (Proc.devRef .tc main_v12) = (Cert.Net.invDeg (m ((c : Thread nD τ).loc main_arg2))) :=
  (show W7 m ρ c (Proc.devRef .tc main_v12) = W6 m ρ c (Proc.devRef .tc main_v12) by keep_host hostOps3).trans (w6_v12 R m ρ c)

theorem w7_v13 : W7 m ρ c (Proc.devRef .tc main_v13) = (swapLast (m ((c : Thread nD τ).loc main_arg3))) :=
  (show W7 m ρ c (Proc.devRef .tc main_v13) = W6 m ρ c (Proc.devRef .tc main_v13) by keep_host hostOps3).trans (w6_v13 R m ρ c)

theorem w7_v14 : W7 m ρ c (Proc.devRef .tc main_v14) = (swapLast (m ((c : Thread nD τ).loc main_arg5))) :=
  (show W7 m ρ c (Proc.devRef .tc main_v14) = W6 m ρ c (Proc.devRef .tc main_v14) by keep_host hostOps3).trans (w6_v14 R m ρ c)

theorem w7_arg4 : W7 m ρ c (Proc.devRef .tc main_arg4) = (m ((c : Thread nD τ).loc main_arg4)) :=
  (show W7 m ρ c (Proc.devRef .tc main_arg4) = W6 m ρ c (Proc.devRef .tc main_arg4) by keep_host hostOps3).trans (w6_arg4 R m ρ c)

theorem w7_arg1 : W7 m ρ c (Proc.devRef .tc main_arg1) = (m ((c : Thread nD τ).loc main_arg1)) :=
  (show W7 m ρ c (Proc.devRef .tc main_arg1) = W6 m ρ c (Proc.devRef .tc main_arg1) by keep_host hostOps3).trans (w6_arg1 R m ρ c)

theorem w7_arg6 : W7 m ρ c (Proc.devRef .tc main_arg6) = (m ((c : Thread nD τ).loc main_arg6)) :=
  (show W7 m ρ c (Proc.devRef .tc main_arg6) = W6 m ρ c (Proc.devRef .tc main_arg6) by keep_host hostOps3).trans (w6_arg6 R m ρ c)

theorem w7_arg7 : W7 m ρ c (Proc.devRef .tc main_arg7) = (m ((c : Thread nD τ).loc main_arg7)) :=
  (show W7 m ρ c (Proc.devRef .tc main_arg7) = W6 m ρ c (Proc.devRef .tc main_arg7) by keep_host hostOps3).trans (w6_arg7 R m ρ c)

theorem w7_v42 : W7 m ρ c (Proc.devRef .tc main_v42) = (x1 m c) :=
  (show W7 m ρ c (Proc.devRef .tc main_v42) = W6 m ρ c (Proc.devRef .tc main_v42) by keep_host hostOps3).trans (w6_v42 R m ρ c)

theorem w8_v70 : W8 m ρ c (Proc.devRef .tc main_v70) = (x2 m c) :=
  (W8_arr m ρ c 5).trans ((R.u3 (V7 m ρ) c).trans (by
    show Cert.Net.upd (W7 m ρ c (Proc.devRef .tc main_v62)) (W7 m ρ c (Proc.devRef .tc main_v42)) (W7 m ρ c (Proc.devRef .tc main_v64)) (W7 m ρ c (Proc.devRef .tc main_v69)) (W7 m ρ c (Proc.devRef .tc main_v68)) = _
    rw [w7_v62 R m ρ c, w7_v42 R m ρ c, w7_v64 R m ρ c, w7_v69 R m ρ c, w7_v68 R m ρ c]
    try rfl))

theorem w8_v1 : W8 m ρ c (Proc.devRef .tc main_v1) = (srcVec (m ((c : Thread nD τ).loc main_arg2))) :=
  (W8_of_ne m ρ c main_v1 (by decide)).trans (w7_v1 R m ρ c)

theorem w8_v3 : W8 m ρ c (Proc.devRef .tc main_v3) = (dstVec (m ((c : Thread nD τ).loc main_arg2))) :=
  (W8_of_ne m ρ c main_v3 (by decide)).trans (w7_v3 R m ρ c)

theorem w8_v12 : W8 m ρ c (Proc.devRef .tc main_v12) = (Cert.Net.invDeg (m ((c : Thread nD τ).loc main_arg2))) :=
  (W8_of_ne m ρ c main_v12 (by decide)).trans (w7_v12 R m ρ c)

theorem w8_v13 : W8 m ρ c (Proc.devRef .tc main_v13) = (swapLast (m ((c : Thread nD τ).loc main_arg3))) :=
  (W8_of_ne m ρ c main_v13 (by decide)).trans (w7_v13 R m ρ c)

theorem w8_v14 : W8 m ρ c (Proc.devRef .tc main_v14) = (swapLast (m ((c : Thread nD τ).loc main_arg5))) :=
  (W8_of_ne m ρ c main_v14 (by decide)).trans (w7_v14 R m ρ c)

theorem w8_arg4 : W8 m ρ c (Proc.devRef .tc main_arg4) = (m ((c : Thread nD τ).loc main_arg4)) :=
  (W8_of_ne m ρ c main_arg4 (by decide)).trans (w7_arg4 R m ρ c)

theorem w8_arg1 : W8 m ρ c (Proc.devRef .tc main_arg1) = (m ((c : Thread nD τ).loc main_arg1)) :=
  (W8_of_ne m ρ c main_arg1 (by decide)).trans (w7_arg1 R m ρ c)

theorem w8_arg6 : W8 m ρ c (Proc.devRef .tc main_arg6) = (m ((c : Thread nD τ).loc main_arg6)) :=
  (W8_of_ne m ρ c main_arg6 (by decide)).trans (w7_arg6 R m ρ c)

theorem w8_arg7 : W8 m ρ c (Proc.devRef .tc main_arg7) = (m ((c : Thread nD τ).loc main_arg7)) :=
  (W8_of_ne m ρ c main_arg7 (by decide)).trans (w7_arg7 R m ρ c)

theorem w9_v75 : W9 m ρ c (Proc.devRef .tc main_v75) = (Cert.Net.eSlab (m ((c : Thread nD τ).loc main_arg6)) ![2, 0, 0] Cert.ReferenceIdeal.Facts₀.slices_S3x256x64_S1x256x64_2_0_0) :=
  by
  show StableHlo.after hostOps4 (W8 m ρ c) (Proc.devRef .tc main_v75) = _
  dsimp only [hostOps4]
  after_results_simp
  rw [w8_arg6 R m ρ c]
  rfl

theorem w9_v76 : W9 m ρ c (Proc.devRef .tc main_v76) = (Cert.Net.bRow (m ((c : Thread nD τ).loc main_arg7)) ![2, 0] Cert.ReferenceIdeal.Facts₀.slices_S3x256_S1x256_2_0) :=
  by
  show StableHlo.after hostOps4 (W8 m ρ c) (Proc.devRef .tc main_v76) = _
  dsimp only [hostOps4]
  after_results_simp
  rw [w8_arg7 R m ρ c]
  exact Cert.Params.bRow_eq _ _ _ _ _

theorem w9_v1 : W9 m ρ c (Proc.devRef .tc main_v1) = (srcVec (m ((c : Thread nD τ).loc main_arg2))) :=
  (show W9 m ρ c (Proc.devRef .tc main_v1) = W8 m ρ c (Proc.devRef .tc main_v1) by keep_host hostOps4).trans (w8_v1 R m ρ c)

theorem w9_v3 : W9 m ρ c (Proc.devRef .tc main_v3) = (dstVec (m ((c : Thread nD τ).loc main_arg2))) :=
  (show W9 m ρ c (Proc.devRef .tc main_v3) = W8 m ρ c (Proc.devRef .tc main_v3) by keep_host hostOps4).trans (w8_v3 R m ρ c)

theorem w9_v12 : W9 m ρ c (Proc.devRef .tc main_v12) = (Cert.Net.invDeg (m ((c : Thread nD τ).loc main_arg2))) :=
  (show W9 m ρ c (Proc.devRef .tc main_v12) = W8 m ρ c (Proc.devRef .tc main_v12) by keep_host hostOps4).trans (w8_v12 R m ρ c)

theorem w9_v13 : W9 m ρ c (Proc.devRef .tc main_v13) = (swapLast (m ((c : Thread nD τ).loc main_arg3))) :=
  (show W9 m ρ c (Proc.devRef .tc main_v13) = W8 m ρ c (Proc.devRef .tc main_v13) by keep_host hostOps4).trans (w8_v13 R m ρ c)

theorem w9_v14 : W9 m ρ c (Proc.devRef .tc main_v14) = (swapLast (m ((c : Thread nD τ).loc main_arg5))) :=
  (show W9 m ρ c (Proc.devRef .tc main_v14) = W8 m ρ c (Proc.devRef .tc main_v14) by keep_host hostOps4).trans (w8_v14 R m ρ c)

theorem w9_arg4 : W9 m ρ c (Proc.devRef .tc main_arg4) = (m ((c : Thread nD τ).loc main_arg4)) :=
  (show W9 m ρ c (Proc.devRef .tc main_arg4) = W8 m ρ c (Proc.devRef .tc main_arg4) by keep_host hostOps4).trans (w8_arg4 R m ρ c)

theorem w9_arg1 : W9 m ρ c (Proc.devRef .tc main_arg1) = (m ((c : Thread nD τ).loc main_arg1)) :=
  (show W9 m ρ c (Proc.devRef .tc main_arg1) = W8 m ρ c (Proc.devRef .tc main_arg1) by keep_host hostOps4).trans (w8_arg1 R m ρ c)

theorem w9_v70 : W9 m ρ c (Proc.devRef .tc main_v70) = (x2 m c) :=
  (show W9 m ρ c (Proc.devRef .tc main_v70) = W8 m ρ c (Proc.devRef .tc main_v70) by keep_host hostOps4).trans (w8_v70 R m ρ c)

theorem w10_v77 : W10 m ρ c (Proc.devRef .tc main_v77) = (el2 m c) :=
  (W10_arr m ρ c 3).trans ((R.e4 (V9 m ρ) c).trans (by
    show Cert.Net.edge (W9 m ρ c (Proc.devRef .tc main_arg1)) (W9 m ρ c (Proc.devRef .tc main_v75)) (W9 m ρ c (Proc.devRef .tc main_v76)) = _
    rw [w9_arg1 R m ρ c, w9_v75 R m ρ c, w9_v76 R m ρ c]
    try rfl))

theorem w10_v1 : W10 m ρ c (Proc.devRef .tc main_v1) = (srcVec (m ((c : Thread nD τ).loc main_arg2))) :=
  (W10_of_ne m ρ c main_v1 (by decide)).trans (w9_v1 R m ρ c)

theorem w10_v3 : W10 m ρ c (Proc.devRef .tc main_v3) = (dstVec (m ((c : Thread nD τ).loc main_arg2))) :=
  (W10_of_ne m ρ c main_v3 (by decide)).trans (w9_v3 R m ρ c)

theorem w10_v12 : W10 m ρ c (Proc.devRef .tc main_v12) = (Cert.Net.invDeg (m ((c : Thread nD τ).loc main_arg2))) :=
  (W10_of_ne m ρ c main_v12 (by decide)).trans (w9_v12 R m ρ c)

theorem w10_v13 : W10 m ρ c (Proc.devRef .tc main_v13) = (swapLast (m ((c : Thread nD τ).loc main_arg3))) :=
  (W10_of_ne m ρ c main_v13 (by decide)).trans (w9_v13 R m ρ c)

theorem w10_v14 : W10 m ρ c (Proc.devRef .tc main_v14) = (swapLast (m ((c : Thread nD τ).loc main_arg5))) :=
  (W10_of_ne m ρ c main_v14 (by decide)).trans (w9_v14 R m ρ c)

theorem w10_arg4 : W10 m ρ c (Proc.devRef .tc main_arg4) = (m ((c : Thread nD τ).loc main_arg4)) :=
  (W10_of_ne m ρ c main_arg4 (by decide)).trans (w9_arg4 R m ρ c)

theorem w10_v70 : W10 m ρ c (Proc.devRef .tc main_v70) = (x2 m c) :=
  (W10_of_ne m ρ c main_v70 (by decide)).trans (w9_v70 R m ρ c)

theorem w11_v90 : W11 m ρ c (Proc.devRef .tc main_v90) = (ag2 m c) :=
  by
  show StableHlo.after hostOps5 (W10 m ρ c) (Proc.devRef .tc main_v90) = _
  dsimp only [hostOps5]
  after_results_simp
  rw [w10_v1 R m ρ c, w10_v3 R m ρ c, w10_v70 R m ρ c, w10_v77 R m ρ c, w10_v12 R m ρ c]
  rfl

theorem w11_v92 : W11 m ρ c (Proc.devRef .tc main_v92) = (Cert.Net.wSlab (m ((c : Thread nD τ).loc main_arg3)) ![2, 0, 0] Cert.ReferenceIdeal.Facts₀.slices_S3x256x256_S1x256x256_2_0_0) :=
  by
  show StableHlo.after hostOps5 (W10 m ρ c) (Proc.devRef .tc main_v92) = _
  dsimp only [hostOps5]
  after_results_simp
  rw [w10_v13 R m ρ c]
  exact Cert.Params.wSlab_eq _ _ rfl rfl _ _ _

theorem w11_v97 : W11 m ρ c (Proc.devRef .tc main_v97) = (Cert.Net.bRow (m ((c : Thread nD τ).loc main_arg4)) ![2, 0] Cert.ReferenceIdeal.Facts₀.slices_S3x256_S1x256_2_0) :=
  by
  show StableHlo.after hostOps5 (W10 m ρ c) (Proc.devRef .tc main_v97) = _
  dsimp only [hostOps5]
  after_results_simp
  rw [w10_arg4 R m ρ c]
  exact Cert.Params.bRow_eq _ _ _ _ _

theorem w11_v96 : W11 m ρ c (Proc.devRef .tc main_v96) = (Cert.Net.wSlab (m ((c : Thread nD τ).loc main_arg5)) ![2, 0, 0] Cert.ReferenceIdeal.Facts₀.slices_S3x256x256_S1x256x256_2_0_0) :=
  by
  show StableHlo.after hostOps5 (W10 m ρ c) (Proc.devRef .tc main_v96) = _
  dsimp only [hostOps5]
  after_results_simp
  rw [w10_v14 R m ρ c]
  exact Cert.Params.wSlab_eq _ _ rfl rfl _ _ _

theorem w11_v70 : W11 m ρ c (Proc.devRef .tc main_v70) = (x2 m c) :=
  (show W11 m ρ c (Proc.devRef .tc main_v70) = W10 m ρ c (Proc.devRef .tc main_v70) by keep_host hostOps5).trans (w10_v70 R m ρ c)

theorem w12_v98 : W12 m ρ c (Proc.devRef .tc main_v98) = (x3 m c) :=
  (W12_arr m ρ c 5).trans ((R.u5 (V11 m ρ) c).trans (by
    show Cert.Net.upd (W11 m ρ c (Proc.devRef .tc main_v90)) (W11 m ρ c (Proc.devRef .tc main_v70)) (W11 m ρ c (Proc.devRef .tc main_v92)) (W11 m ρ c (Proc.devRef .tc main_v97)) (W11 m ρ c (Proc.devRef .tc main_v96)) = _
    rw [w11_v90 R m ρ c, w11_v70 R m ρ c, w11_v92 R m ρ c, w11_v97 R m ρ c, w11_v96 R m ρ c]
    try rfl))

/-- The result buffer after the last region holds the network of the argument arrays. -/
theorem result : W12 m ρ c (Proc.devRef .tc main_v98) = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (w12_v98 R m ρ c).trans (x3_eq m c)

end Cert.Trace

end
-- ==== Proof.RefNet.lean ====
/-
  The reference program's run: its result is the three-layer network of its arguments.
-/
import proofs.«155130_j4260607558136_2_alg».proof.Defs
import proofs.«155130_j4260607558136_2_alg».proof.Proof.Gen.ReferenceIdeal.Run
import proofs.«155130_j4260607558136_2_alg».proof.Proof.Spec

set_option maxRecDepth 16384

noncomputable section

namespace Cert.RefNet

open Idealize.ShloMosaic Idealize.ShloMosaic.TcCoe Idealize.SL.Sem
open Cert.ReferenceIdeal Cert.ReferenceIdeal.Gen

/-- The composed term of the reference's host operations is, operation for operation, the three layers: each layer's
    edge image, gather, accumulation at the targets, scaling by the inverse degree, the two products with the bias, and
    the maximum with zero. -/
theorem res_eq (m : (ℓ : Loc nD τ sig) → Buf (Elt Ideal) ℓ) (c : Dev nD) :
    Cert.ReferenceIdeal.Value.res_main_v123 (F := Ideal) m c
      = Cert.Net.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v123 Cert.Net.net Cert.Net.layer Cert.Net.upd Cert.Net.agg Cert.Net.edge
    Cert.Net.wSlab Cert.Net.eSlab Cert.Net.bRow Cert.Net.invDeg Cert.Net.srcCol Cert.Net.dstCol
  rfl

end Cert.RefNet

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.EdgeValue.lean ====
/-
  What an edge-message region leaves in its output array: the affine image ea·w + bias row of the arrays the region finds, as ONE whole-array function, for any contents at the region's entry.
-/
import proofs.«155130_j4260607558136_2_alg».proof.Proof.Gen.KernelIdeal.Frame
import proofs.«155130_j4260607558136_2_alg».proof.Proof.Gen.ReferenceIdeal
import proofs.«155130_j4260607558136_2_alg».proof.Proof.Spec
import proofs.«155130_j4260607558136_2_alg».proof.Proof.LibDot
import proofs.«155130_j4260607558136_2_alg».proof.Proof.LibHostRead
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.EdgeValue

open Idealize.ShloMosaic Idealize.ShloMosaic.TcCoe Idealize.ShloMosaic.ValueIdx Idealize.SL.Sem
open Cert.KernelIdeal Cert.KernelIdeal.Gen
open Idealize.ShloMosaic.Pipeline (Dat Cfg Window)
open scoped BigOperators

/-! ## The two spellings of the affine image, entry by entry -/

/-- The offsets of a rectangle that starts at a matrix's origin. -/
theorem origin2 : (![0, 0] : Fin 2 → Nat) = fun _ => 0 := funext fun a => by fin_cases a <;> rfl

/-- The specification at (p, q): the sum over k of ea (p, k) * w (k, q), plus the bias row's entry q. -/
theorem edge_apply (ea : FVec Ideal S400000x64 .f32) (w : FVec Ideal S64x256 .f32) (brow : FVec Ideal S1x256 .f32)
    (p : Fin 400000) (q : Fin 256) :
    Cert.Net.edge ea w brow (ix2 p q) = (∑ k : Fin 64, ea (ix2 p k) * w (ix2 k q)) + brow (ix2 (0 : Fin 1) q) := by
  unfold Cert.Net.edge
  have hdd : Cert.ReferenceIdeal.dot_S400000x64_S64x256_S400000x256_1_0_0_1_n_n
      = LibDot.dims Cert.ReferenceIdeal.Facts₀.dot_S400000x64_S64x256_S400000x256_1_0_0_1_n_n_wf := rfl
  rw [addf_apply, hdd, LibDot.dotGeneral_apply, LibHostRead.bcast_1b_ab_apply]

/-- The body's stored value at (r, q), from the blocks it loads: the same sum over k, plus the bias row's entry q
    (narrowing to bf16 is the identity on exact values; the product accumulates from zero). -/
theorem pay0_apply (x0 : Vec Ideal S5000x64 .f32) (x1 : Vec Ideal S64x256 .f32) (x2 : Vec Ideal S1x256 .f32)
    (r : Fin 5000) (q : Fin 256) :
    k0_pay1 (F := Ideal) x0 x1 x2 (ix2 r q) = (∑ k : Fin 64, x0 (ix2 r k) * x1 (ix2 k q)) + x2 (ix2 (0 : Fin 1) q) := by
  unfold k0_pay1
  have hdd : dot_S5000x64_S64x256_S5000x256_1_0_0_1_n_n
      = LibDot.dims Facts₀.dot_S5000x64_S64x256_S5000x256_1_0_0_1_n_n_wf := rfl
  rw [shapeCast_self, shapeCast_self, addf_apply, hdd, LibDot.matmul_zero_apply, broadcastTo_1b_ab_apply]
  rfl

/-- One block against the whole array: if x0 is rows 5000n … 5000n+4999 of ea, x1 is w and x2 is the bias row, the
    body's stored value at (r, q) is the specification at (5000n + r, q): both sides are the same sum. -/
theorem block0_value (n : Nat) (x0 : Vec Ideal S5000x64 .f32) (x1 : Vec Ideal S64x256 .f32) (x2 : Vec Ideal S1x256 .f32)
    (ea : FVec Ideal S400000x64 .f32) (w : FVec Ideal S64x256 .f32) (brow : FVec Ideal S1x256 .f32)
    (h0 : ∀ (r : Fin 5000) (k : Fin 64) (p : Fin 400000), p.val = n * 5000 + r.val → x0 (ix2 r k) = ea (ix2 p k))
    (h1 : x1 = w) (h2 : x2 = brow)
    (j : S5000x256.Idx) (i : S400000x256.Idx) (hi0 : (i 0).val = n * 5000 + (j 0).val) (hi1 : (i 1).val = (j 1).val) :
    k0_pay1 (F := Ideal) x0 x1 x2 j = Cert.Net.edge ea w brow i := by
  obtain ⟨r, q, rfl⟩ : ∃ (r : Fin 5000) (q : Fin 256), j = ix2 r q := ⟨j 0, j 1, eq_ix2 j⟩
  obtain ⟨p, q', rfl⟩ : ∃ (p : Fin 400000) (q' : Fin 256), i = ix2 p q' := ⟨i 0, i 1, eq_ix2 i⟩
  obtain rfl : q' = q := Fin.ext hi1
  subst h1 h2
  rw [pay0_apply, edge_apply]
  exact congrArg (· + x2 (ix2 (0 : Fin 1) q')) (Finset.sum_congr rfl fun k _ => by rw [h0 r k p hi0])

/-- The body's stored value at (r, q), from the blocks it loads: the same sum over k, plus the bias row's entry q
    (narrowing to bf16 is the identity on exact values; the product accumulates from zero). -/
theorem pay2_apply (x0 : Vec Ideal S5000x64 .f32) (x1 : Vec Ideal S64x256 .f32) (x2 : Vec Ideal S1x256 .f32)
    (r : Fin 5000) (q : Fin 256) :
    k2_pay1 (F := Ideal) x0 x1 x2 (ix2 r q) = (∑ k : Fin 64, x0 (ix2 r k) * x1 (ix2 k q)) + x2 (ix2 (0 : Fin 1) q) := by
  unfold k2_pay1
  have hdd : dot_S5000x64_S64x256_S5000x256_1_0_0_1_n_n
      = LibDot.dims Facts₀.dot_S5000x64_S64x256_S5000x256_1_0_0_1_n_n_wf := rfl
  rw [shapeCast_self, shapeCast_self, addf_apply, hdd, LibDot.matmul_zero_apply, broadcastTo_1b_ab_apply]
  rfl

/-- One block against the whole array: if x0 is rows 5000n … 5000n+4999 of ea, x1 is w and x2 is the bias row, the
    body's stored value at (r, q) is the specification at (5000n + r, q): both sides are the same sum. -/
theorem block2_value (n : Nat) (x0 : Vec Ideal S5000x64 .f32) (x1 : Vec Ideal S64x256 .f32) (x2 : Vec Ideal S1x256 .f32)
    (ea : FVec Ideal S400000x64 .f32) (w : FVec Ideal S64x256 .f32) (brow : FVec Ideal S1x256 .f32)
    (h0 : ∀ (r : Fin 5000) (k : Fin 64) (p : Fin 400000), p.val = n * 5000 + r.val → x0 (ix2 r k) = ea (ix2 p k))
    (h1 : x1 = w) (h2 : x2 = brow)
    (j : S5000x256.Idx) (i : S400000x256.Idx) (hi0 : (i 0).val = n * 5000 + (j 0).val) (hi1 : (i 1).val = (j 1).val) :
    k2_pay1 (F := Ideal) x0 x1 x2 j = Cert.Net.edge ea w brow i := by
  obtain ⟨r, q, rfl⟩ : ∃ (r : Fin 5000) (q : Fin 256), j = ix2 r q := ⟨j 0, j 1, eq_ix2 j⟩
  obtain ⟨p, q', rfl⟩ : ∃ (p : Fin 400000) (q' : Fin 256), i = ix2 p q' := ⟨i 0, i 1, eq_ix2 i⟩
  obtain rfl : q' = q := Fin.ext hi1
  subst h1 h2
  rw [pay2_apply, edge_apply]
  exact congrArg (· + x2 (ix2 (0 : Fin 1) q')) (Finset.sum_congr rfl fun k _ => by rw [h0 r k p hi0])

/-- The body's stored value at (r, q), from the blocks it loads: the same sum over k, plus the bias row's entry q
    (narrowing to bf16 is the identity on exact values; the product accumulates from zero). -/
theorem pay4_apply (x0 : Vec Ideal S5000x64 .f32) (x1 : Vec Ideal S64x256 .f32) (x2 : Vec Ideal S1x256 .f32)
    (r : Fin 5000) (q : Fin 256) :
    k4_pay1 (F := Ideal) x0 x1 x2 (ix2 r q) = (∑ k : Fin 64, x0 (ix2 r k) * x1 (ix2 k q)) + x2 (ix2 (0 : Fin 1) q) := by
  unfold k4_pay1
  have hdd : dot_S5000x64_S64x256_S5000x256_1_0_0_1_n_n
      = LibDot.dims Facts₀.dot_S5000x64_S64x256_S5000x256_1_0_0_1_n_n_wf := rfl
  rw [shapeCast_self, shapeCast_self, addf_apply, hdd, LibDot.matmul_zero_apply, broadcastTo_1b_ab_apply]
  rfl

/-- One block against the whole array: if x0 is rows 5000n … 5000n+4999 of ea, x1 is w and x2 is the bias row, the
    body's stored value at (r, q) is the specification at (5000n + r, q): both sides are the same sum. -/
theorem block4_value (n : Nat) (x0 : Vec Ideal S5000x64 .f32) (x1 : Vec Ideal S64x256 .f32) (x2 : Vec Ideal S1x256 .f32)
    (ea : FVec Ideal S400000x64 .f32) (w : FVec Ideal S64x256 .f32) (brow : FVec Ideal S1x256 .f32)
    (h0 : ∀ (r : Fin 5000) (k : Fin 64) (p : Fin 400000), p.val = n * 5000 + r.val → x0 (ix2 r k) = ea (ix2 p k))
    (h1 : x1 = w) (h2 : x2 = brow)
    (j : S5000x256.Idx) (i : S400000x256.Idx) (hi0 : (i 0).val = n * 5000 + (j 0).val) (hi1 : (i 1).val = (j 1).val) :
    k4_pay1 (F := Ideal) x0 x1 x2 j = Cert.Net.edge ea w brow i := by
  obtain ⟨r, q, rfl⟩ : ∃ (r : Fin 5000) (q : Fin 256), j = ix2 r q := ⟨j 0, j 1, eq_ix2 j⟩
  obtain ⟨p, q', rfl⟩ : ∃ (p : Fin 400000) (q' : Fin 256), i = ix2 p q' := ⟨i 0, i 1, eq_ix2 i⟩
  obtain rfl : q' = q := Fin.ext hi1
  subst h1 h2
  rw [pay4_apply, edge_apply]
  exact congrArg (· + x2 (ix2 (0 : Fin 1) q')) (Finset.sum_congr rfl fun k _ => by rw [h0 r k p hi0])

variable (V : (c : Dev nD) → (b : Ref sig .tc) → Buf (Elt Ideal) ((c : Thread nD τ).loc b))

/-! ## Region 0: from the blocks to the array -/

/-- The printed index maps, decided once over the grid: point t's block of the edge attributes and of the output is
    block row t, and the weight and the bias row are read whole at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point t's block of the edge attributes is rows 5000t … 5000t+4999 of the array the region finds
    (a block's coordinate is block index × block size + the coordinate inside the block). -/
theorem rows0 (c : Dev nD) (t : Fin cfg0.N) (r : Fin 5000) (k : Fin 64) (p : Fin 400000)
    (hp : p.val = t.val * 5000 + r.val) :
    (iblk0 V c 0 t : Vec Ideal S5000x64 .f32) (ix2 r k)
      = (V c (Pipeline.arrRef spec0 0) : FVec Ideal S400000x64 .f32) (ix2 p k) := by
  obtain ⟨e00, e01, -⟩ := idx0 t
  show V c (Pipeline.arrRef spec0 0) (((cfg0.win 0).blk t).view.emb (ix2 r k)) = V c (Pipeline.arrRef spec0 0) (ix2 p k)
  refine congrArg (V c (Pipeline.arrRef spec0 0)) (funext fun a => Fin.ext ?_)
  match a with
  | ⟨0, _⟩ => show win0_0.index t (0 : Fin 2) * 5000 + 1 * r.val = p.val; omega
  | ⟨1, _⟩ => show win0_0.index t (1 : Fin 2) * 64 + 1 * k.val = k.val; omega

/-- The weight's block at every point is the whole array the region finds. -/
theorem weight0 (c : Dev nD) (t : Fin cfg0.N) :
    (iblk0 V c 1 t : Vec Ideal S64x256 .f32) = (V c (Pipeline.arrRef spec0 1) : FVec Ideal S64x256 .f32) := by
  obtain ⟨-, -, e10, e11, -⟩ := idx0 t
  funext y
  show V c (Pipeline.arrRef spec0 1) (((cfg0.win 1).blk t).view.emb y) = V c (Pipeline.arrRef spec0 1) y
  refine congrArg (V c (Pipeline.arrRef spec0 1)) (funext fun a => Fin.ext ?_)
  match a with
  | ⟨0, _⟩ => show win0_1.index t (0 : Fin 2) * 64 + 1 * (y 0).val = (y 0).val; omega
  | ⟨1, _⟩ => show win0_1.index t (1 : Fin 2) * 256 + 1 * (y 1).val = (y 1).val; omega

/-- The bias row's block at every point is the whole one-row array the region finds. -/
theorem bias0 (c : Dev nD) (t : Fin cfg0.N) :
    (iblk0 V c 2 t : Vec Ideal S1x256 .f32) = (V c (Pipeline.arrRef spec0 2) : FVec Ideal S1x256 .f32) := by
  obtain ⟨-, -, -, -, e20, e21, -⟩ := idx0 t
  funext y
  show V c (Pipeline.arrRef spec0 2) (((cfg0.win 2).blk t).view.emb y) = V c (Pipeline.arrRef spec0 2) y
  refine congrArg (V c (Pipeline.arrRef spec0 2)) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

set_option maxHeartbeats 1000000 in
/-- What point t writes back is block t of the specification of the arrays the region finds: the body's stored value
    of the three blocks, entry (r, q), is the specification at (5000t + r, q). -/
theorem flushed0_eq (c : Dev nD) (t : Fin cfg0.N) :
    (dat0 (F := Ideal) V c).flushed 3 t = ((cfg0.win 3).blk t).view.read (Elt Ideal)
      (Cert.Net.edge (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero origin2]
  simp only [View.ld_unit_zero (S := S5000x64) origin2, View.ld_unit_zero (S := S64x256) origin2,
    View.ld_unit_zero (S := S1x256) origin2]
  obtain ⟨-, -, -, -, -, -, e30, e31⟩ := idx0 t
  funext j
  show k0_pay1 (F := Ideal) (iblk0 V c 0 t) (iblk0 V c 1 t) (iblk0 V c 2 t) j
    = Cert.Net.edge (V c (Pipeline.arrRef spec0 0)) (V c (Pipeline.arrRef spec0 1)) (V c (Pipeline.arrRef spec0 2))
        (((cfg0.win 3).blk t).view.emb j)
  refine block0_value t.val _ _ _ _ _ _ (fun r k p hp => rows0 V c t r k p hp) (weight0 V c t) (bias0 V c t) j _ ?_ ?_
  · show win0_3.index t (0 : Fin 2) * 5000 + 1 * (j 0).val = t.val * 5000 + (j 0).val; omega
  · show win0_3.index t (1 : Fin 2) * 256 + 1 * (j 1).val = (j 1).val; omega

/-- An index of the output array is in point t's block iff each coordinate is in the block's range on its axis. -/
theorem mem_blk0 (t : Fin cfg0.N) (i : S400000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v21).slice (win0_3.rect t)).set ↔ _
  rw [View.set_slice_whole, Rect.mem_set_unit]
  exact Iff.rfl

/-- Every entry of the output array is written back: row p lies in the block of point p / 5000. -/
theorem cover0 (i : S400000x256.Idx) :
    ∃ t : Fin cfg0.N, (cfg0.win 3).flush t = true ∧ i ∈ ((cfg0.win 3).blk t).view.set := by
  have hi0 : (i 0).val < 400000 := (i 0).isLt
  have hi1 : (i 1).val < 256 := (i 1).isLt
  have hN : cfg0.N = 80 := rfl
  obtain ⟨t, ht⟩ : ∃ t : Fin cfg0.N, t.val = (i 0).val / 5000 := ⟨⟨(i 0).val / 5000, by rw [hN]; omega⟩, rfl⟩
  obtain ⟨-, -, -, -, -, -, e30, e31⟩ := idx0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 256 ≤ (i 1).val ∧ (i 1).val < win0_3.index t (1 : Fin 2) * 256 + 256
    omega

/-- The output array after the region: the affine image of the edge attributes the region finds. -/
theorem final0 (c : Dev nD) :
    (dat0 (F := Ideal) V c).arrAt 3 cfg0.N
      = Cert.Net.edge (V c (Pipeline.arrRef spec0 0)) (V c (Pipeline.arrRef spec0 1)) (V c (Pipeline.arrRef spec0 2)) :=
  (dat0 (F := Ideal) V c).arrAt_eq_of_cover 3 _ (fun t _ => flushed0_eq V c t) cover0

/-! ## Region 2: from the blocks to the array -/

/-- The printed index maps, decided once over the grid: point t's block of the edge attributes and of the output is
    block row t, and the weight and the bias row are read whole at every point. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Point t's block of the edge attributes is rows 5000t … 5000t+4999 of the array the region finds
    (a block's coordinate is block index × block size + the coordinate inside the block). -/
theorem rows2 (c : Dev nD) (t : Fin cfg2.N) (r : Fin 5000) (k : Fin 64) (p : Fin 400000)
    (hp : p.val = t.val * 5000 + r.val) :
    (iblk2 V c 0 t : Vec Ideal S5000x64 .f32) (ix2 r k)
      = (V c (Pipeline.arrRef spec2 0) : FVec Ideal S400000x64 .f32) (ix2 p k) := by
  obtain ⟨e00, e01, -⟩ := idx2 t
  show V c (Pipeline.arrRef spec2 0) (((cfg2.win 0).blk t).view.emb (ix2 r k)) = V c (Pipeline.arrRef spec2 0) (ix2 p k)
  refine congrArg (V c (Pipeline.arrRef spec2 0)) (funext fun a => Fin.ext ?_)
  match a with
  | ⟨0, _⟩ => show win2_0.index t (0 : Fin 2) * 5000 + 1 * r.val = p.val; omega
  | ⟨1, _⟩ => show win2_0.index t (1 : Fin 2) * 64 + 1 * k.val = k.val; omega

/-- The weight's block at every point is the whole array the region finds. -/
theorem weight2 (c : Dev nD) (t : Fin cfg2.N) :
    (iblk2 V c 1 t : Vec Ideal S64x256 .f32) = (V c (Pipeline.arrRef spec2 1) : FVec Ideal S64x256 .f32) := by
  obtain ⟨-, -, e10, e11, -⟩ := idx2 t
  funext y
  show V c (Pipeline.arrRef spec2 1) (((cfg2.win 1).blk t).view.emb y) = V c (Pipeline.arrRef spec2 1) y
  refine congrArg (V c (Pipeline.arrRef spec2 1)) (funext fun a => Fin.ext ?_)
  match a with
  | ⟨0, _⟩ => show win2_1.index t (0 : Fin 2) * 64 + 1 * (y 0).val = (y 0).val; omega
  | ⟨1, _⟩ => show win2_1.index t (1 : Fin 2) * 256 + 1 * (y 1).val = (y 1).val; omega

/-- The bias row's block at every point is the whole one-row array the region finds. -/
theorem bias2 (c : Dev nD) (t : Fin cfg2.N) :
    (iblk2 V c 2 t : Vec Ideal S1x256 .f32) = (V c (Pipeline.arrRef spec2 2) : FVec Ideal S1x256 .f32) := by
  obtain ⟨-, -, -, -, e20, e21, -⟩ := idx2 t
  funext y
  show V c (Pipeline.arrRef spec2 2) (((cfg2.win 2).blk t).view.emb y) = V c (Pipeline.arrRef spec2 2) y
  refine congrArg (V c (Pipeline.arrRef spec2 2)) (funext fun a => Fin.ext ?_)
  match a with
  | ⟨0, _⟩ => show win2_2.index t (0 : Fin 2) * 1 + 1 * (y 0).val = (y 0).val; omega
  | ⟨1, _⟩ => show win2_2.index t (1 : Fin 2) * 256 + 1 * (y 1).val = (y 1).val; omega

set_option maxHeartbeats 1000000 in
/-- What point t writes back is block t of the specification of the arrays the region finds: the body's stored value
    of the three blocks, entry (r, q), is the specification at (5000t + r, q). -/
theorem flushed2_eq (c : Dev nD) (t : Fin cfg2.N) :
    (dat2 (F := Ideal) V c).flushed 3 t = ((cfg2.win 3).blk t).view.read (Elt Ideal)
      (Cert.Net.edge (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero origin2]
  simp only [View.ld_unit_zero (S := S5000x64) origin2, View.ld_unit_zero (S := S64x256) origin2,
    View.ld_unit_zero (S := S1x256) origin2]
  obtain ⟨-, -, -, -, -, -, e30, e31⟩ := idx2 t
  funext j
  show k2_pay1 (F := Ideal) (iblk2 V c 0 t) (iblk2 V c 1 t) (iblk2 V c 2 t) j
    = Cert.Net.edge (V c (Pipeline.arrRef spec2 0)) (V c (Pipeline.arrRef spec2 1)) (V c (Pipeline.arrRef spec2 2))
        (((cfg2.win 3).blk t).view.emb j)
  refine block2_value t.val _ _ _ _ _ _ (fun r k p hp => rows2 V c t r k p hp) (weight2 V c t) (bias2 V c t) j _ ?_ ?_
  · show win2_3.index t (0 : Fin 2) * 5000 + 1 * (j 0).val = t.val * 5000 + (j 0).val; omega
  · show win2_3.index t (1 : Fin 2) * 256 + 1 * (j 1).val = (j 1).val; omega

/-- An index of the output array is in point t's block iff each coordinate is in the block's range on its axis. -/
theorem mem_blk2 (t : Fin cfg2.N) (i : S400000x256.Idx) :
    i ∈ ((cfg2.win 3).blk t).view.set ↔ ∀ a : Fin 2, win2_3.index t a * S5000x256.size a ≤ (i a).val
      ∧ (i a).val < win2_3.index t a * S5000x256.size a + S5000x256.size a := by
  show i ∈ ((View.whole main_v49).slice (win2_3.rect t)).set ↔ _
  rw [View.set_slice_whole, Rect.mem_set_unit]
  exact Iff.rfl

/-- Every entry of the output array is written back: row p lies in the block of point p / 5000. -/
theorem cover2 (i : S400000x256.Idx) :
    ∃ t : Fin cfg2.N, (cfg2.win 3).flush t = true ∧ i ∈ ((cfg2.win 3).blk t).view.set := by
  have hi0 : (i 0).val < 400000 := (i 0).isLt
  have hi1 : (i 1).val < 256 := (i 1).isLt
  have hN : cfg2.N = 80 := rfl
  obtain ⟨t, ht⟩ : ∃ t : Fin cfg2.N, t.val = (i 0).val / 5000 := ⟨⟨(i 0).val / 5000, by rw [hN]; omega⟩, rfl⟩
  obtain ⟨-, -, -, -, -, -, e30, e31⟩ := idx2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 256 ≤ (i 1).val ∧ (i 1).val < win2_3.index t (1 : Fin 2) * 256 + 256
    omega

/-- The output array after the region: the affine image of the edge attributes the region finds. -/
theorem final2 (c : Dev nD) :
    (dat2 (F := Ideal) V c).arrAt 3 cfg2.N
      = Cert.Net.edge (V c (Pipeline.arrRef spec2 0)) (V c (Pipeline.arrRef spec2 1)) (V c (Pipeline.arrRef spec2 2)) :=
  (dat2 (F := Ideal) V c).arrAt_eq_of_cover 3 _ (fun t _ => flushed2_eq V c t) cover2

/-! ## Region 4: from the blocks to the array -/

/-- The printed index maps, decided once over the grid: point t's block of the edge attributes and of the output is
    block row t, and the weight and the bias row are read whole at every point. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Point t's block of the edge attributes is rows 5000t … 5000t+4999 of the array the region finds
    (a block's coordinate is block index × block size + the coordinate inside the block). -/
theorem rows4 (c : Dev nD) (t : Fin cfg4.N) (r : Fin 5000) (k : Fin 64) (p : Fin 400000)
    (hp : p.val = t.val * 5000 + r.val) :
    (iblk4 V c 0 t : Vec Ideal S5000x64 .f32) (ix2 r k)
      = (V c (Pipeline.arrRef spec4 0) : FVec Ideal S400000x64 .f32) (ix2 p k) := by
  obtain ⟨e00, e01, -⟩ := idx4 t
  show V c (Pipeline.arrRef spec4 0) (((cfg4.win 0).blk t).view.emb (ix2 r k)) = V c (Pipeline.arrRef spec4 0) (ix2 p k)
  refine congrArg (V c (Pipeline.arrRef spec4 0)) (funext fun a => Fin.ext ?_)
  match a with
  | ⟨0, _⟩ => show win4_0.index t (0 : Fin 2) * 5000 + 1 * r.val = p.val; omega
  | ⟨1, _⟩ => show win4_0.index t (1 : Fin 2) * 64 + 1 * k.val = k.val; omega

/-- The weight's block at every point is the whole array the region finds. -/
theorem weight4 (c : Dev nD) (t : Fin cfg4.N) :
    (iblk4 V c 1 t : Vec Ideal S64x256 .f32) = (V c (Pipeline.arrRef spec4 1) : FVec Ideal S64x256 .f32) := by
  obtain ⟨-, -, e10, e11, -⟩ := idx4 t
  funext y
  show V c (Pipeline.arrRef spec4 1) (((cfg4.win 1).blk t).view.emb y) = V c (Pipeline.arrRef spec4 1) y
  refine congrArg (V c (Pipeline.arrRef spec4 1)) (funext fun a => Fin.ext ?_)
  match a with
  | ⟨0, _⟩ => show win4_1.index t (0 : Fin 2) * 64 + 1 * (y 0).val = (y 0).val; omega
  | ⟨1, _⟩ => show win4_1.index t (1 : Fin 2) * 256 + 1 * (y 1).val = (y 1).val; omega

/-- The bias row's block at every point is the whole one-row array the region finds. -/
theorem bias4 (c : Dev nD) (t : Fin cfg4.N) :
    (iblk4 V c 2 t : Vec Ideal S1x256 .f32) = (V c (Pipeline.arrRef spec4 2) : FVec Ideal S1x256 .f32) := by
  obtain ⟨-, -, -, -, e20, e21, -⟩ := idx4 t
  funext y
  show V c (Pipeline.arrRef spec4 2) (((cfg4.win 2).blk t).view.emb y) = V c (Pipeline.arrRef spec4 2) y
  refine congrArg (V c (Pipeline.arrRef spec4 2)) (funext fun a => Fin.ext ?_)
  match a with
  | ⟨0, _⟩ => show win4_2.index t (0 : Fin 2) * 1 + 1 * (y 0).val = (y 0).val; omega
  | ⟨1, _⟩ => show win4_2.index t (1 : Fin 2) * 256 + 1 * (y 1).val = (y 1).val; omega

set_option maxHeartbeats 1000000 in
/-- What point t writes back is block t of the specification of the arrays the region finds: the body's stored value
    of the three blocks, entry (r, q), is the specification at (5000t + r, q). -/
theorem flushed4_eq (c : Dev nD) (t : Fin cfg4.N) :
    (dat4 (F := Ideal) V c).flushed 3 t = ((cfg4.win 3).blk t).view.read (Elt Ideal)
      (Cert.Net.edge (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero origin2]
  simp only [View.ld_unit_zero (S := S5000x64) origin2, View.ld_unit_zero (S := S64x256) origin2,
    View.ld_unit_zero (S := S1x256) origin2]
  obtain ⟨-, -, -, -, -, -, e30, e31⟩ := idx4 t
  funext j
  show k4_pay1 (F := Ideal) (iblk4 V c 0 t) (iblk4 V c 1 t) (iblk4 V c 2 t) j
    = Cert.Net.edge (V c (Pipeline.arrRef spec4 0)) (V c (Pipeline.arrRef spec4 1)) (V c (Pipeline.arrRef spec4 2))
        (((cfg4.win 3).blk t).view.emb j)
  refine block4_value t.val _ _ _ _ _ _ (fun r k p hp => rows4 V c t r k p hp) (weight4 V c t) (bias4 V c t) j _ ?_ ?_
  · show win4_3.index t (0 : Fin 2) * 5000 + 1 * (j 0).val = t.val * 5000 + (j 0).val; omega
  · show win4_3.index t (1 : Fin 2) * 256 + 1 * (j 1).val = (j 1).val; omega

/-- An index of the output array is in point t's block iff each coordinate is in the block's range on its axis. -/
theorem mem_blk4 (t : Fin cfg4.N) (i : S400000x256.Idx) :
    i ∈ ((cfg4.win 3).blk t).view.set ↔ ∀ a : Fin 2, win4_3.index t a * S5000x256.size a ≤ (i a).val
      ∧ (i a).val < win4_3.index t a * S5000x256.size a + S5000x256.size a := by
  show i ∈ ((View.whole main_v77).slice (win4_3.rect t)).set ↔ _
  rw [View.set_slice_whole, Rect.mem_set_unit]
  exact Iff.rfl

/-- Every entry of the output array is written back: row p lies in the block of point p / 5000. -/
theorem cover4 (i : S400000x256.Idx) :
    ∃ t : Fin cfg4.N, (cfg4.win 3).flush t = true ∧ i ∈ ((cfg4.win 3).blk t).view.set := by
  have hi0 : (i 0).val < 400000 := (i 0).isLt
  have hi1 : (i 1).val < 256 := (i 1).isLt
  have hN : cfg4.N = 80 := rfl
  obtain ⟨t, ht⟩ : ∃ t : Fin cfg4.N, t.val = (i 0).val / 5000 := ⟨⟨(i 0).val / 5000, by rw [hN]; omega⟩, rfl⟩
  obtain ⟨-, -, -, -, -, -, e30, e31⟩ := idx4 t
  refine ⟨t, flush4_3 t, ?_⟩
  rw [mem_blk4]
  intro a
  match a with
  | ⟨0, _⟩ =>
    show win4_3.index t (0 : Fin 2) * 5000 ≤ (i 0).val ∧ (i 0).val < win4_3.index t (0 : Fin 2) * 5000 + 5000
    omega
  | ⟨1, _⟩ =>
    show win4_3.index t (1 : Fin 2) * 256 ≤ (i 1).val ∧ (i 1).val < win4_3.index t (1 : Fin 2) * 256 + 256
    omega

/-- The output array after the region: the affine image of the edge attributes the region finds. -/
theorem final4 (c : Dev nD) :
    (dat4 (F := Ideal) V c).arrAt 3 cfg4.N
      = Cert.Net.edge (V c (Pipeline.arrRef spec4 0)) (V c (Pipeline.arrRef spec4 1)) (V c (Pipeline.arrRef spec4 2)) :=
  (dat4 (F := Ideal) V c).arrAt_eq_of_cover 3 _ (fun t _ => flushed4_eq V c t) cover4

end Cert.EdgeValue

end
-- ==== Proof.UpdValue.lean ====
/-
  What a node-update region leaves in its output array: max(0, (a·wl + bias row) + x·wr) of the arrays the region finds, as ONE whole-array function, for any contents at the region's entry.
-/
import proofs.«155130_j4260607558136_2_alg».proof.Proof.Gen.KernelIdeal.Frame
import proofs.«155130_j4260607558136_2_alg».proof.Proof.Gen.ReferenceIdeal
import proofs.«155130_j4260607558136_2_alg».proof.Proof.Spec
import proofs.«155130_j4260607558136_2_alg».proof.Proof.LibDot
import proofs.«155130_j4260607558136_2_alg».proof.Proof.LibHostRead
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.UpdValue

open Idealize.ShloMosaic Idealize.ShloMosaic.TcCoe Idealize.ShloMosaic.ValueIdx Idealize.SL.Sem
open Cert.KernelIdeal Cert.KernelIdeal.Gen
open Idealize.ShloMosaic.Pipeline (Dat Cfg Window)
open scoped BigOperators

/-! ## The update at one entry -/

/-- Entry (p, q) of the update: the larger of zero and (Σₖ a(p,k)·wl(k,q) + b(0,q)) + Σₖ x(p,k)·wr(k,q). -/
def updAt {n : ℕ} (a x : FVec Ideal ⟨2, ![n, 256]⟩ .f32) (wl : FVec Ideal ⟨2, ![256, 256]⟩ .f32)
    (b : FVec Ideal ⟨2, ![1, 256]⟩ .f32) (wr : FVec Ideal ⟨2, ![256, 256]⟩ .f32) (p : Fin n) (q : Fin 256) : Ideal .f32 :=
  max (((∑ k : Fin 256, a (ix2 p k) * wl (ix2 k q)) + b (ix2 (0 : Fin 1) q)) + ∑ k : Fin 256, x (ix2 p k) * wr (ix2 k q))
    (Ideal.ofBits .f32 0x00000000#32)

/-- The kernel's block payload at (r, q): narrowing to bf16 is the identity on exact values, each product into a zero
    accumulator is the sum over the contracted coordinate, and the one-row bias is read at its column. -/
theorem pay1_apply (a0 x0 : Vec Ideal S2000x256 .f32) (wl wr : Vec Ideal S256x256 .f32) (b : Vec Ideal S1x256 .f32)
    (r : Fin 2000) (q : Fin 256) :
    k1_pay1 (F := Ideal) a0 x0 wl wr b (ix2 r q) = updAt a0 x0 wl b wr r q := by
  unfold k1_pay1
  simp only [shapeCast_self]
  have hd : dot_S2000x256_S256x256_S2000x256_1_0_0_1_n_n = LibDot.dims dot_S2000x256_S256x256_S2000x256_1_0_0_1_n_n_wf := rfl
  rw [hd, maximumf_apply, addf_apply, addf_apply, LibDot.matmul_zero_apply, LibDot.matmul_zero_apply, broadcastTo_1b_ab_apply]
  rfl

/-- The specification at (p, q): each host product is the sum over the contracted coordinate, the bias row is read at
    its column, and the splat literal is the zero word's value. -/
theorem upd_apply (a x : FVec Ideal Cert.ReferenceIdeal.S50000x256 .f32) (wl : FVec Ideal Cert.ReferenceIdeal.S256x256 .f32)
    (b : FVec Ideal Cert.ReferenceIdeal.S1x256 .f32) (wr : FVec Ideal Cert.ReferenceIdeal.S256x256 .f32) (p : Fin 50000) (q : Fin 256) :
    Cert.Net.upd a x wl b wr (ix2 p q) = updAt a x wl b wr p q := by
  unfold Cert.Net.upd
  have hd : Cert.ReferenceIdeal.dot_S50000x256_S256x256_S50000x256_1_0_0_1_n_n
      = LibDot.dims Cert.ReferenceIdeal.Gen.dot_S50000x256_S256x256_S50000x256_1_0_0_1_n_n_wf := rfl
  rw [hd, maximumf_apply, addf_apply, addf_apply, LibDot.dotGeneral_apply, LibDot.dotGeneral_apply, LibHostRead.bcast_1b_ab_apply]
  rfl

/-- Region 3's block payload at (r, q): the same two sums, bias and maximum. -/
theorem pay3_apply (a0 x0 : Vec Ideal S2000x256 .f32) (wl wr : Vec Ideal S256x256 .f32) (b : Vec Ideal S1x256 .f32)
    (r : Fin 2000) (q : Fin 256) :
    k3_pay1 (F := Ideal) a0 x0 wl wr b (ix2 r q) = updAt a0 x0 wl b wr r q := by
  unfold k3_pay1
  simp only [shapeCast_self]
  have hd : dot_S2000x256_S256x256_S2000x256_1_0_0_1_n_n = LibDot.dims dot_S2000x256_S256x256_S2000x256_1_0_0_1_n_n_wf := rfl
  rw [hd, maximumf_apply, addf_apply, addf_apply, LibDot.matmul_zero_apply, LibDot.matmul_zero_apply, broadcastTo_1b_ab_apply]
  rfl

/-- Region 5's block payload at (r, q): the same two sums, bias and maximum. -/
theorem pay5_apply (a0 x0 : Vec Ideal S2000x256 .f32) (wl wr : Vec Ideal S256x256 .f32) (b : Vec Ideal S1x256 .f32)
    (r : Fin 2000) (q : Fin 256) :
    k5_pay1 (F := Ideal) a0 x0 wl wr b (ix2 r q) = updAt a0 x0 wl b wr r q := by
  unfold k5_pay1
  simp only [shapeCast_self]
  have hd : dot_S2000x256_S256x256_S2000x256_1_0_0_1_n_n = LibDot.dims dot_S2000x256_S256x256_S2000x256_1_0_0_1_n_n_wf := rfl
  rw [hd, maximumf_apply, addf_apply, addf_apply, LibDot.matmul_zero_apply, LibDot.matmul_zero_apply, broadcastTo_1b_ab_apply]
  rfl

/-- The entry depends on row p of a and of x, on column q of the two weights and on the bias at q only. -/
theorem updAt_congr {n n' : ℕ} (a x : FVec Ideal ⟨2, ![n, 256]⟩ .f32) (a' x' : FVec Ideal ⟨2, ![n', 256]⟩ .f32)
    (wl wl' : FVec Ideal ⟨2, ![256, 256]⟩ .f32) (b b' : FVec Ideal ⟨2, ![1, 256]⟩ .f32) (wr wr' : FVec Ideal ⟨2, ![256, 256]⟩ .f32)
    (p : Fin n) (p' : Fin n') (q : Fin 256)
    (ha : ∀ k : Fin 256, a (ix2 p k) = a' (ix2 p' k)) (hx : ∀ k : Fin 256, x (ix2 p k) = x' (ix2 p' k))
    (hwl : ∀ k : Fin 256, wl (ix2 k q) = wl' (ix2 k q)) (hb : b (ix2 (0 : Fin 1) q) = b' (ix2 (0 : Fin 1) q))
    (hwr : ∀ k : Fin 256, wr (ix2 k q) = wr' (ix2 k q)) :
    updAt a x wl b wr p q = updAt a' x' wl' b' wr' p' q := by
  unfold updAt
  rw [hb]
  simp only [ha, hx, hwl, hwr]

/-- The offsets of a rectangle at a matrix's origin are the zero function. -/
theorem hz : (![0, 0] : Fin 2 → Nat) = fun _ => 0 := funext fun a => by fin_cases a <;> rfl

variable (V : (c : Dev nD) → (b : Ref sig .tc) → Buf (Elt Ideal) ((c : Thread nD τ).loc b))

/-! ## Region 1 -/

/-- The block indices over the grid: at point t the blocks of a, of x and of the output are block row t, block column 0;
    the two weights and the bias row are whole. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Point t's block of a is rows 2000t … 2000t+1999 of a. -/
theorem blk1_0 (c : Dev nD) (t : Fin cfg1.N) (r : Fin 2000) (k : Fin 256) (p : Fin 50000) (hp : p.val = t.val * 2000 + r.val) :
    iblk1 V c 0 t (ix2 r k) = V c (Pipeline.arrRef spec1 0) (ix2 p k) := by
  obtain ⟨e0, e1, -⟩ := idx1 t
  show V c (Pipeline.arrRef spec1 0) (((cfg1.win 0).blk t).view.emb (ix2 r k)) = _
  refine congrArg _ (funext fun a => Fin.ext ?_)
  match a with
  | ⟨0, _⟩ => show win1_0.index t (0 : Fin 2) * 2000 + 1 * r.val = p.val; omega
  | ⟨1, _⟩ => show win1_0.index t (1 : Fin 2) * 256 + 1 * k.val = k.val; omega

/-- Point t's block of x is rows 2000t … 2000t+1999 of x. -/
theorem blk1_1 (c : Dev nD) (t : Fin cfg1.N) (r : Fin 2000) (k : Fin 256) (p : Fin 50000) (hp : p.val = t.val * 2000 + r.val) :
    iblk1 V c 1 t (ix2 r k) = V c (Pipeline.arrRef spec1 1) (ix2 p k) := by
  obtain ⟨-, -, e0, e1, -⟩ := idx1 t
  show V c (Pipeline.arrRef spec1 1) (((cfg1.win 1).blk t).view.emb (ix2 r k)) = _
  refine congrArg _ (funext fun a => Fin.ext ?_)
  match a with
  | ⟨0, _⟩ => show win1_1.index t (0 : Fin 2) * 2000 + 1 * r.val = p.val; omega
  | ⟨1, _⟩ => show win1_1.index t (1 : Fin 2) * 256 + 1 * k.val = k.val; omega

/-- Every point's block of the left weight is the whole weight. -/
theorem blk1_2 (c : Dev nD) (t : Fin cfg1.N) (k q : Fin 256) :
    iblk1 V c 2 t (ix2 k q) = V c (Pipeline.arrRef spec1 2) (ix2 k q) := by
  obtain ⟨-, -, -, -, e0, e1, -⟩ := idx1 t
  show V c (Pipeline.arrRef spec1 2) (((cfg1.win 2).blk t).view.emb (ix2 k q)) = _
  refine congrArg _ (funext fun a => Fin.ext ?_)
  match a with
  | ⟨0, _⟩ => show win1_2.index t (0 : Fin 2) * 256 + 1 * k.val = k.val; omega
  | ⟨1, _⟩ => show win1_2.index t (1 : Fin 2) * 256 + 1 * q.val = q.val; omega

/-- Every point's block of the bias row is the whole row. -/
theorem blk1_3 (c : Dev nD) (t : Fin cfg1.N) (z : Fin 1) (q : Fin 256) :
    iblk1 V c 3 t (ix2 z q) = V c (Pipeline.arrRef spec1 3) (ix2 z q) := by
  obtain ⟨-, -, -, -, -, -, e0, e1, -⟩ := idx1 t
  show V c (Pipeline.arrRef spec1 3) (((cfg1.win 3).blk t).view.emb (ix2 z q)) = _
  refine congrArg _ (funext fun a => Fin.ext ?_)
  match a with
  | ⟨0, _⟩ => show win1_3.index t (0 : Fin 2) * 1 + 1 * z.val = z.val; omega
  | ⟨1, _⟩ => show win1_3.index t (1 : Fin 2) * 256 + 1 * q.val = q.val; omega

/-- Every point's block of the right weight is the whole weight. -/
theorem blk1_4 (c : Dev nD) (t : Fin cfg1.N) (k q : Fin 256) :
    iblk1 V c 4 t (ix2 k q) = V c (Pipeline.arrRef spec1 4) (ix2 k q) := by
  obtain ⟨-, -, -, -, -, -, -, -, e0, e1, -⟩ := idx1 t
  show V c (Pipeline.arrRef spec1 4) (((cfg1.win 4).blk t).view.emb (ix2 k q)) = _
  refine congrArg _ (funext fun a => Fin.ext ?_)
  match a with
  | ⟨0, _⟩ => show win1_4.index t (0 : Fin 2) * 256 + 1 * k.val = k.val; omega
  | ⟨1, _⟩ => show win1_4.index t (1 : Fin 2) * 256 + 1 * q.val = q.val; omega

set_option maxHeartbeats 1600000 in
/-- What point t writes back is rows 2000t … 2000t+1999 of the update of the arrays the region finds: entry (r, q) of
    the block and entry (2000t + r, q) of the update are the same two sums over the same row and columns. -/
theorem flushed1_eq (c : Dev nD) (t : Fin cfg1.N) :
    (dat1 (F := Ideal) V c).flushed 5 t = ((cfg1.win 5).blk t).view.read (Elt Ideal)
      (Cert.Net.upd (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  have key : ∀ j : S2000x256.Idx,
      k1_pay1 (F := Ideal) (iblk1 V c 0 t) (iblk1 V c 1 t) (iblk1 V c 2 t) (iblk1 V c 4 t) (iblk1 V c 3 t) j
        = Cert.Net.upd (V c (Pipeline.arrRef spec1 0)) (V c (Pipeline.arrRef spec1 1)) (V c (Pipeline.arrRef spec1 2))
            (V c (Pipeline.arrRef spec1 3)) (V c (Pipeline.arrRef spec1 4)) (((cfg1.win 5).blk t).view.emb j) := by
    intro j
    obtain ⟨r, q, rfl⟩ : ∃ (r : Fin 2000) (q : Fin 256), j = ix2 r q := ⟨j 0, j 1, eq_ix2 j⟩
    obtain ⟨-, -, -, -, -, -, -, -, -, -, e0, e1⟩ := idx1 t
    have hN : t.val < 25 := lt_of_lt_of_eq t.isLt N_1
    have hr : r.val < 2000 := r.isLt
    have hemb : ((cfg1.win 5).blk t).view.emb (ix2 r q) = ix2 (⟨t.val * 2000 + r.val, by omega⟩ : Fin 50000) q := by
      funext a; apply Fin.ext
      match a with
      | ⟨0, _⟩ => show win1_5.index t (0 : Fin 2) * 2000 + 1 * r.val = t.val * 2000 + r.val; omega
      | ⟨1, _⟩ => show win1_5.index t (1 : Fin 2) * 256 + 1 * q.val = q.val; omega
    rw [hemb, upd_apply]
    refine (pay1_apply (iblk1 V c 0 t) (iblk1 V c 1 t) (iblk1 V c 2 t) (iblk1 V c 4 t) (iblk1 V c 3 t) r q).trans ?_
    exact updAt_congr _ _ _ _ _ _ _ _ _ _ r _ q (fun k => blk1_0 V c t r k _ rfl) (fun k => blk1_1 V c t r k _ rfl)
      (fun k => blk1_2 V c t k q) (blk1_3 V c t 0 q) (fun k => blk1_4 V c t k q)
  exact funext key

/-- An entry of the array is in point t's block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v42).slice (win1_5.rect t)).set ↔ _
  rw [View.set_slice_whole, Rect.mem_set_unit]
  exact Iff.rfl

/-- Row p is in the block of point p / 2000: the 25 blocks of 2000 rows cover the 50000 rows. -/
theorem cover1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, lt_of_lt_of_eq (by omega : (i 0).val / 2000 < 25) N_1.symm⟩, rfl⟩
  obtain ⟨-, -, -, -, -, -, -, -, -, -, e0, e1⟩ := idx1 t
  refine ⟨t, flush1_5 t, ?_⟩
  rw [mem_blk1]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 256 ≤ (i 1).val ∧ (i 1).val < win1_5.index t (1 : Fin 2) * 256 + 256
    omega

theorem final1 (c : Dev nD) :
    (dat1 (F := Ideal) V c).arrAt 5 cfg1.N
      = Cert.Net.upd (V c (Pipeline.arrRef spec1 0)) (V c (Pipeline.arrRef spec1 1)) (V c (Pipeline.arrRef spec1 2))
          (V c (Pipeline.arrRef spec1 3)) (V c (Pipeline.arrRef spec1 4)) := by
  exact (dat1 V c).arrAt_eq_of_cover 5 _ (fun t _ => flushed1_eq V c t) cover1

/-! ## Region 3 -/

/-- The block indices over the grid: at point t the blocks of a, of x and of the output are block row t, block column 0;
    the two weights and the bias row are whole. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Point t's block of a is rows 2000t … 2000t+1999 of a. -/
theorem blk3_0 (c : Dev nD) (t : Fin cfg3.N) (r : Fin 2000) (k : Fin 256) (p : Fin 50000) (hp : p.val = t.val * 2000 + r.val) :
    iblk3 V c 0 t (ix2 r k) = V c (Pipeline.arrRef spec3 0) (ix2 p k) := by
  obtain ⟨e0, e1, -⟩ := idx3 t
  show V c (Pipeline.arrRef spec3 0) (((cfg3.win 0).blk t).view.emb (ix2 r k)) = _
  refine congrArg _ (funext fun a => Fin.ext ?_)
  match a with
  | ⟨0, _⟩ => show win3_0.index t (0 : Fin 2) * 2000 + 1 * r.val = p.val; omega
  | ⟨1, _⟩ => show win3_0.index t (1 : Fin 2) * 256 + 1 * k.val = k.val; omega

/-- Point t's block of x is rows 2000t … 2000t+1999 of x. -/
theorem blk3_1 (c : Dev nD) (t : Fin cfg3.N) (r : Fin 2000) (k : Fin 256) (p : Fin 50000) (hp : p.val = t.val * 2000 + r.val) :
    iblk3 V c 1 t (ix2 r k) = V c (Pipeline.arrRef spec3 1) (ix2 p k) := by
  obtain ⟨-, -, e0, e1, -⟩ := idx3 t
  show V c (Pipeline.arrRef spec3 1) (((cfg3.win 1).blk t).view.emb (ix2 r k)) = _
  refine congrArg _ (funext fun a => Fin.ext ?_)
  match a with
  | ⟨0, _⟩ => show win3_1.index t (0 : Fin 2) * 2000 + 1 * r.val = p.val; omega
  | ⟨1, _⟩ => show win3_1.index t (1 : Fin 2) * 256 + 1 * k.val = k.val; omega

/-- Every point's block of the left weight is the whole weight. -/
theorem blk3_2 (c : Dev nD) (t : Fin cfg3.N) (k q : Fin 256) :
    iblk3 V c 2 t (ix2 k q) = V c (Pipeline.arrRef spec3 2) (ix2 k q) := by
  obtain ⟨-, -, -, -, e0, e1, -⟩ := idx3 t
  show V c (Pipeline.arrRef spec3 2) (((cfg3.win 2).blk t).view.emb (ix2 k q)) = _
  refine congrArg _ (funext fun a => Fin.ext ?_)
  match a with
  | ⟨0, _⟩ => show win3_2.index t (0 : Fin 2) * 256 + 1 * k.val = k.val; omega
  | ⟨1, _⟩ => show win3_2.index t (1 : Fin 2) * 256 + 1 * q.val = q.val; omega

/-- Every point's block of the bias row is the whole row. -/
theorem blk3_3 (c : Dev nD) (t : Fin cfg3.N) (z : Fin 1) (q : Fin 256) :
    iblk3 V c 3 t (ix2 z q) = V c (Pipeline.arrRef spec3 3) (ix2 z q) := by
  obtain ⟨-, -, -, -, -, -, e0, e1, -⟩ := idx3 t
  show V c (Pipeline.arrRef spec3 3) (((cfg3.win 3).blk t).view.emb (ix2 z q)) = _
  refine congrArg _ (funext fun a => Fin.ext ?_)
  match a with
  | ⟨0, _⟩ => show win3_3.index t (0 : Fin 2) * 1 + 1 * z.val = z.val; omega
  | ⟨1, _⟩ => show win3_3.index t (1 : Fin 2) * 256 + 1 * q.val = q.val; omega

/-- Every point's block of the right weight is the whole weight. -/
theorem blk3_4 (c : Dev nD) (t : Fin cfg3.N) (k q : Fin 256) :
    iblk3 V c 4 t (ix2 k q) = V c (Pipeline.arrRef spec3 4) (ix2 k q) := by
  obtain ⟨-, -, -, -, -, -, -, -, e0, e1, -⟩ := idx3 t
  show V c (Pipeline.arrRef spec3 4) (((cfg3.win 4).blk t).view.emb (ix2 k q)) = _
  refine congrArg _ (funext fun a => Fin.ext ?_)
  match a with
  | ⟨0, _⟩ => show win3_4.index t (0 : Fin 2) * 256 + 1 * k.val = k.val; omega
  | ⟨1, _⟩ => show win3_4.index t (1 : Fin 2) * 256 + 1 * q.val = q.val; omega

set_option maxHeartbeats 1600000 in
/-- What point t writes back is rows 2000t … 2000t+1999 of the update of the arrays the region finds: entry (r, q) of
    the block and entry (2000t + r, q) of the update are the same two sums over the same row and columns. -/
theorem flushed3_eq (c : Dev nD) (t : Fin cfg3.N) :
    (dat3 (F := Ideal) V c).flushed 5 t = ((cfg3.win 5).blk t).view.read (Elt Ideal)
      (Cert.Net.upd (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S2000x256) hz, View.ld_unit_zero (S := S256x256) hz, View.ld_unit_zero (S := S1x256) hz]
  have key : ∀ j : S2000x256.Idx,
      k3_pay1 (F := Ideal) (iblk3 V c 0 t) (iblk3 V c 1 t) (iblk3 V c 2 t) (iblk3 V c 4 t) (iblk3 V c 3 t) j
        = Cert.Net.upd (V c (Pipeline.arrRef spec3 0)) (V c (Pipeline.arrRef spec3 1)) (V c (Pipeline.arrRef spec3 2))
            (V c (Pipeline.arrRef spec3 3)) (V c (Pipeline.arrRef spec3 4)) (((cfg3.win 5).blk t).view.emb j) := by
    intro j
    obtain ⟨r, q, rfl⟩ : ∃ (r : Fin 2000) (q : Fin 256), j = ix2 r q := ⟨j 0, j 1, eq_ix2 j⟩
    obtain ⟨-, -, -, -, -, -, -, -, -, -, e0, e1⟩ := idx3 t
    have hN : t.val < 25 := lt_of_lt_of_eq t.isLt N_3
    have hr : r.val < 2000 := r.isLt
    have hemb : ((cfg3.win 5).blk t).view.emb (ix2 r q) = ix2 (⟨t.val * 2000 + r.val, by omega⟩ : Fin 50000) q := by
      funext a; apply Fin.ext
      match a with
      | ⟨0, _⟩ => show win3_5.index t (0 : Fin 2) * 2000 + 1 * r.val = t.val * 2000 + r.val; omega
      | ⟨1, _⟩ => show win3_5.index t (1 : Fin 2) * 256 + 1 * q.val = q.val; omega
    rw [hemb, upd_apply]
    refine (pay3_apply (iblk3 V c 0 t) (iblk3 V c 1 t) (iblk3 V c 2 t) (iblk3 V c 4 t) (iblk3 V c 3 t) r q).trans ?_
    exact updAt_congr _ _ _ _ _ _ _ _ _ _ r _ q (fun k => blk3_0 V c t r k _ rfl) (fun k => blk3_1 V c t r k _ rfl)
      (fun k => blk3_2 V c t k q) (blk3_3 V c t 0 q) (fun k => blk3_4 V c t k q)
  exact funext key

/-- An entry of the array is in point t's block iff each coordinate is in the block's range on its axis. -/
theorem mem_blk3 (t : Fin cfg3.N) (i : S50000x256.Idx) :
    i ∈ ((cfg3.win 5).blk t).view.set ↔ ∀ a : Fin 2, win3_5.index t a * S2000x256.size a ≤ (i a).val
      ∧ (i a).val < win3_5.index t a * S2000x256.size a + S2000x256.size a := by
  show i ∈ ((View.whole main_v70).slice (win3_5.rect t)).set ↔ _
  rw [View.set_slice_whole, Rect.mem_set_unit]
  exact Iff.rfl

/-- Row p is in the block of point p / 2000: the 25 blocks of 2000 rows cover the 50000 rows. -/
theorem cover3 (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  obtain ⟨t, ht⟩ : ∃ t : Fin cfg3.N, t.val = (i 0).val / 2000 :=
    ⟨⟨(i 0).val / 2000, lt_of_lt_of_eq (by omega : (i 0).val / 2000 < 25) N_3.symm⟩, rfl⟩
  obtain ⟨-, -, -, -, -, -, -, -, -, -, e0, e1⟩ := idx3 t
  refine ⟨t, flush3_5 t, ?_⟩
  rw [mem_blk3]
  intro a
  match a with
  | ⟨0, _⟩ =>
    show win3_5.index t (0 : Fin 2) * 2000 ≤ (i 0).val ∧ (i 0).val < win3_5.index t (0 : Fin 2) * 2000 + 2000
    omega
  | ⟨1, _⟩ =>
    show win3_5.index t (1 : Fin 2) * 256 ≤ (i 1).val ∧ (i 1).val < win3_5.index t (1 : Fin 2) * 256 + 256
    omega

theorem final3 (c : Dev nD) :
    (dat3 (F := Ideal) V c).arrAt 5 cfg3.N
      = Cert.Net.upd (V c (Pipeline.arrRef spec3 0)) (V c (Pipeline.arrRef spec3 1)) (V c (Pipeline.arrRef spec3 2))
          (V c (Pipeline.arrRef spec3 3)) (V c (Pipeline.arrRef spec3 4)) := by
  exact (dat3 V c).arrAt_eq_of_cover 5 _ (fun t _ => flushed3_eq V c t) cover3

/-! ## Region 5 -/

/-- The block indices over the grid: at point t the blocks of a, of x and of the output are block row t, block column 0;
    the two weights and the bias row are whole. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Point t's block of a is rows 2000t … 2000t+1999 of a. -/
theorem blk5_0 (c : Dev nD) (t : Fin cfg5.N) (r : Fin 2000) (k : Fin 256) (p : Fin 50000) (hp : p.val = t.val * 2000 + r.val) :
    iblk5 V c 0 t (ix2 r k) = V c (Pipeline.arrRef spec5 0) (ix2 p k) := by
  obtain ⟨e0, e1, -⟩ := idx5 t
  show V c (Pipeline.arrRef spec5 0) (((cfg5.win 0).blk t).view.emb (ix2 r k)) = _
  refine congrArg _ (funext fun a => Fin.ext ?_)
  match a with
  | ⟨0, _⟩ => show win5_0.index t (0 : Fin 2) * 2000 + 1 * r.val = p.val; omega
  | ⟨1, _⟩ => show win5_0.index t (1 : Fin 2) * 256 + 1 * k.val = k.val; omega

/-- Point t's block of x is rows 2000t … 2000t+1999 of x. -/
theorem blk5_1 (c : Dev nD) (t : Fin cfg5.N) (r : Fin 2000) (k : Fin 256) (p : Fin 50000) (hp : p.val = t.val * 2000 + r.val) :
    iblk5 V c 1 t (ix2 r k) = V c (Pipeline.arrRef spec5 1) (ix2 p k) := by
  obtain ⟨-, -, e0, e1, -⟩ := idx5 t
  show V c (Pipeline.arrRef spec5 1) (((cfg5.win 1).blk t).view.emb (ix2 r k)) = _
  refine congrArg _ (funext fun a => Fin.ext ?_)
  match a with
  | ⟨0, _⟩ => show win5_1.index t (0 : Fin 2) * 2000 + 1 * r.val = p.val; omega
  | ⟨1, _⟩ => show win5_1.index t (1 : Fin 2) * 256 + 1 * k.val = k.val; omega

/-- Every point's block of the left weight is the whole weight. -/
theorem blk5_2 (c : Dev nD) (t : Fin cfg5.N) (k q : Fin 256) :
    iblk5 V c 2 t (ix2 k q) = V c (Pipeline.arrRef spec5 2) (ix2 k q) := by
  obtain ⟨-, -, -, -, e0, e1, -⟩ := idx5 t
  show V c (Pipeline.arrRef spec5 2) (((cfg5.win 2).blk t).view.emb (ix2 k q)) = _
  refine congrArg _ (funext fun a => Fin.ext ?_)
  match a with
  | ⟨0, _⟩ => show win5_2.index t (0 : Fin 2) * 256 + 1 * k.val = k.val; omega
  | ⟨1, _⟩ => show win5_2.index t (1 : Fin 2) * 256 + 1 * q.val = q.val; omega

/-- Every point's block of the bias row is the whole row. -/
theorem blk5_3 (c : Dev nD) (t : Fin cfg5.N) (z : Fin 1) (q : Fin 256) :
    iblk5 V c 3 t (ix2 z q) = V c (Pipeline.arrRef spec5 3) (ix2 z q) := by
  obtain ⟨-, -, -, -, -, -, e0, e1, -⟩ := idx5 t
  show V c (Pipeline.arrRef spec5 3) (((cfg5.win 3).blk t).view.emb (ix2 z q)) = _
  refine congrArg _ (funext fun a => Fin.ext ?_)
  match a with
  | ⟨0, _⟩ => show win5_3.index t (0 : Fin 2) * 1 + 1 * z.val = z.val; omega
  | ⟨1, _⟩ => show win5_3.index t (1 : Fin 2) * 256 + 1 * q.val = q.val; omega

/-- Every point's block of the right weight is the whole weight. -/
theorem blk5_4 (c : Dev nD) (t : Fin cfg5.N) (k q : Fin 256) :
    iblk5 V c 4 t (ix2 k q) = V c (Pipeline.arrRef spec5 4) (ix2 k q) := by
  obtain ⟨-, -, -, -, -, -, -, -, e0, e1, -⟩ := idx5 t
  show V c (Pipeline.arrRef spec5 4) (((cfg5.win 4).blk t).view.emb (ix2 k q)) = _
  refine congrArg _ (funext fun a => Fin.ext ?_)
  match a with
  | ⟨0, _⟩ => show win5_4.index t (0 : Fin 2) * 256 + 1 * k.val = k.val; omega
  | ⟨1, _⟩ => show win5_4.index t (1 : Fin 2) * 256 + 1 * q.val = q.val; omega

set_option maxHeartbeats 1600000 in
/-- What point t writes back is rows 2000t … 2000t+1999 of the update of the arrays the region finds: entry (r, q) of
    the block and entry (2000t + r, q) of the update are the same two sums over the same row and columns. -/
theorem flushed5_eq (c : Dev nD) (t : Fin cfg5.N) :
    (dat5 (F := Ideal) V c).flushed 5 t = ((cfg5.win 5).blk t).view.read (Elt Ideal)
      (Cert.Net.upd (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero hz]
  simp only [View.ld_unit_zero (S := S2000x256) hz, View.ld_unit_zero (S := S256x256) hz, View.ld_unit_zero (S := S1x256) hz]
  have key : ∀ j : S2000x256.Idx,
      k5_pay1 (F := Ideal) (iblk5 V c 0 t) (iblk5 V c 1 t) (iblk5 V c 2 t) (iblk5 V c 4 t) (iblk5 V c 3 t) j
        = Cert.Net.upd (V c (Pipeline.arrRef spec5 0)) (V c (Pipeline.arrRef spec5 1)) (V c (Pipeline.arrRef spec5 2))
            (V c (Pipeline.arrRef spec5 3)) (V c (Pipeline.arrRef spec5 4)) (((cfg5.win 5).blk t).view.emb j) := by
    intro j
    obtain ⟨r, q, rfl⟩ : ∃ (r : Fin 2000) (q : Fin 256), j = ix2 r q := ⟨j 0, j 1, eq_ix2 j⟩
    obtain ⟨-, -, -, -, -, -, -, -, -, -, e0, e1⟩ := idx5 t
    have hN : t.val < 25 := lt_of_lt_of_eq t.isLt N_5
    have hr : r.val < 2000 := r.isLt
    have hemb : ((cfg5.win 5).blk t).view.emb (ix2 r q) = ix2 (⟨t.val * 2000 + r.val, by omega⟩ : Fin 50000) q := by
      funext a; apply Fin.ext
      match a with
      | ⟨0, _⟩ => show win5_5.index t (0 : Fin 2) * 2000 + 1 * r.val = t.val * 2000 + r.val; omega
      | ⟨1, _⟩ => show win5_5.index t (1 : Fin 2) * 256 + 1 * q.val = q.val; omega
    rw [hemb, upd_apply]
    refine (pay5_apply (iblk5 V c 0 t) (iblk5 V c 1 t) (iblk5 V c 2 t) (iblk5 V c 4 t) (iblk5 V c 3 t) r q).trans ?_
    exact updAt_congr _ _ _ _ _ _ _ _ _ _ r _ q (fun k => blk5_0 V c t r k _ rfl) (fun k => blk5_1 V c t r k _ rfl)
      (fun k => blk5_2 V c t k q) (blk5_3 V c t 0 q) (fun k => blk5_4 V c t k q)
  exact funext key

/-- An entry of the array is in point t's block iff each coordinate is in the block's range on its axis. -/
theorem mem_blk5 (t : Fin cfg5.N) (i : S50000x256.Idx) :
    i ∈ ((cfg5.win 5).blk t).view.set ↔ ∀ a : Fin 2, win5_5.index t a * S2000x256.size a ≤ (i a).val
      ∧ (i a).val < win5_5.index t a * S2000x256.size a + S2000x256.size a := by
  show i ∈ ((View.whole main_v98).slice (win5_5.rect t)).set ↔ _
  rw [View.set_slice_whole, Rect.mem_set_unit]
  exact Iff.rfl

/-- Row p is in the block of point p / 2000: the 25 blocks of 2000 rows cover the 50000 rows. -/
theorem cover5 (i : S50000x256.Idx) :
    ∃ t : Fin cfg5.N, (cfg5.win 5).flush t = true ∧ i ∈ ((cfg5.win 5).blk t).view.set := by
  have hi0 : (i 0).val < 50000 := (i 0).isLt
  have hi1 : (i 1).val < 256 := (i 1).isLt
  obtain ⟨t, ht⟩ : ∃ t : Fin cfg5.N, t.val = (i 0).val / 2000 :=
    ⟨⟨(i 0).val / 2000, lt_of_lt_of_eq (by omega : (i 0).val / 2000 < 25) N_5.symm⟩, rfl⟩
  obtain ⟨-, -, -, -, -, -, -, -, -, -, e0, e1⟩ := idx5 t
  refine ⟨t, flush5_5 t, ?_⟩
  rw [mem_blk5]
  intro a
  match a with
  | ⟨0, _⟩ =>
    show win5_5.index t (0 : Fin 2) * 2000 ≤ (i 0).val ∧ (i 0).val < win5_5.index t (0 : Fin 2) * 2000 + 2000
    omega
  | ⟨1, _⟩ =>
    show win5_5.index t (1 : Fin 2) * 256 ≤ (i 1).val ∧ (i 1).val < win5_5.index t (1 : Fin 2) * 256 + 256
    omega

theorem final5 (c : Dev nD) :
    (dat5 (F := Ideal) V c).arrAt 5 cfg5.N
      = Cert.Net.upd (V c (Pipeline.arrRef spec5 0)) (V c (Pipeline.arrRef spec5 1)) (V c (Pipeline.arrRef spec5 2))
          (V c (Pipeline.arrRef spec5 3)) (V c (Pipeline.arrRef spec5 4)) := by
  exact (dat5 V c).arrAt_eq_of_cover 5 _ (fun t _ => flushed5_eq V c t) cover5

end Cert.UpdValue

end
-- ==== Proof.lean ====
/-
  The certificate of a three-layer graph network with mean aggregation and edge attributes.

  Both programs compute, from node features x (50000 × 256), edge attributes (400000 × 64), an edge table and per-layer
  parameters, three times: every edge's message "features of its source node plus an affine image of its attributes",
  the mean of the messages arriving at every node (the sum scaled by 1 / max(in-degree, 1)), and the new features
  max(0, (mean·Wlᵀ + bl) + x·Wrᵀ). The reference spells every step as a host operation. The kernel program computes the
  affine image of the edge attributes and the node update in six pipelined regions — blocks of 5000 edges and of 2000
  nodes, the matrix products taken on narrowed operands, which on exact values is no change — and keeps the gather,
  the accumulation at the targets and the degree computation as the same host operations.

  So the two results are ONE function of the arguments, operation for operation, and no law of arithmetic is
  needed beyond reading each region's blocks back as a whole array: an edge region leaves ea·w + bias on every
  row (EdgeValue), an update region leaves the rectified sum on every row (UpdValue), the kernel's parameter slabs are
  the specification's (Params), the buffers between the regions hold what the specification names (Trace), and the
  reference's composed term is the specification's term (RefNet). The precondition is not used by the value
  claim; the frames are the generated ones, the reference's its run with the result dropped; the idealization
  rewrote no operation.
-/
import proofs.«155130_j4260607558136_2_alg».proof.Defs
import proofs.«155130_j4260607558136_2_alg».proof.Proof.Gen.Kernel
import proofs.«155130_j4260607558136_2_alg».proof.Proof.Gen.Kernel.Skeleton
import proofs.«155130_j4260607558136_2_alg».proof.Proof.Gen.Kernel.Launch
import proofs.«155130_j4260607558136_2_alg».proof.Proof.Gen.Kernel.Points
import proofs.«155130_j4260607558136_2_alg».proof.Proof.Gen.Kernel.Frame
import proofs.«155130_j4260607558136_2_alg».proof.Proof.Gen.KernelIdeal
import proofs.«155130_j4260607558136_2_alg».proof.Proof.Gen.KernelIdeal.Skeleton
import proofs.«155130_j4260607558136_2_alg».proof.Proof.Gen.KernelIdeal.Launch
import proofs.«155130_j4260607558136_2_alg».proof.Proof.Gen.KernelIdeal.Points
import proofs.«155130_j4260607558136_2_alg».proof.Proof.Gen.KernelIdeal.Frame
import proofs.«155130_j4260607558136_2_alg».proof.Proof.Gen.ReferenceIdeal
import proofs.«155130_j4260607558136_2_alg».proof.Proof.Gen.ReferenceIdeal.Run
import proofs.«155130_j4260607558136_2_alg».proof.Proof.Gen.Pre_finite_inputs
import proofs.«155130_j4260607558136_2_alg».proof.Proof.RunValue
import proofs.«155130_j4260607558136_2_alg».proof.Proof.Trace
import proofs.«155130_j4260607558136_2_alg».proof.Proof.RefNet
import proofs.«155130_j4260607558136_2_alg».proof.Proof.EdgeValue
import proofs.«155130_j4260607558136_2_alg».proof.Proof.UpdValue
import Idealize.ShloMosaic.Adequacy
import Idealize.ShloMosaic.Init

noncomputable section

namespace Cert.Proof

open Idealize.ShloMosaic Idealize.SL.Sem

/-- What the six regions leave in their output arrays. -/
theorem regionValues : Cert.Trace.RegionValues :=
  ⟨Cert.EdgeValue.final0, Cert.UpdValue.final1, Cert.EdgeValue.final2, Cert.UpdValue.final3, Cert.EdgeValue.final4,
    Cert.UpdValue.final5⟩

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the arguments in their result buffer: the kernel program by its run
    followed through the six regions, the reference by its composed term read as the specification's. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Trace.result regionValues m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.RefNet.res_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
